-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096 .f32) (main_arg6 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S4096x1024 : Shape := ⟨2, ![4096, 1024]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096x1024, .bf16⟩
  | .hbm, ⟨8, _⟩ => ⟨S4096x1024, .bf16⟩
  | .hbm, ⟨9, _⟩ => ⟨S4096, .f32⟩
  | .hbm, ⟨10, _⟩ => ⟨S4096x1024, .f32⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024, .f32⟩
  | .local _ .vmem, ⟨11, _⟩ => ⟨S1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S256x1024 : S1x1024.Broadcasts S256x1024
  shapeCasts_S256x1024_S256x1024 : S256x1024.ShapeCasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x1024.size a
  hwx0_4 : ∀ i : grid0.Coords, EltTy.bits .bf16 = 32 ∨ (Rect.block (s := S4096x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond4 i == 1#1) | 7 => fun i => !(k0_cond4 i == 1#1) | ⟨_ + 8, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024x4096, .f32⟩
  | .hbm, ⟨8, _⟩ => ⟨S4096x4096, .f32⟩
  | .hbm, ⟨9, _⟩ => ⟨S1024x4096, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KBCases.lean ====
/-
  The grid of the LSTM cell kernel has 16 × 4 points: point `t` works on batch tile `t / 4` and on gate group
  `t % 4` (input, forget, cell, output).  The body has four conditionals, one per gate group; the first three store a
  gate into a buffer the kernel keeps between points, the last combines the three kept gates with the output gate and
  stores the two results.  This module decides, over the 64 points, which conditional is taken where, and where the two
  result windows are stored into and written back: only at the points of the output gate.
-/
import proofs.«180770_j49460843380786_1_alg».proof.Proof.Gen.Kernel.Frame
import proofs.«180770_j49460843380786_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditionals -/

/-- "The point's gate group is `g`", as the body computes it from the second grid coordinate. -/
abbrev isGate (g : BitVec 32) (i : grid0.Coords) : Prop :=
  (Scalar.cmpi .ne (Scalar.extui (Scalar.cmpi .eq (BitVec.ofNat 32 (i 1).val) g)) 0#32) = 1#1

/-- The last conditional's condition, which the program names. -/
abbrev isOutGate (i : grid0.Coords) : Prop := k0_cond4 i = 1#1

theorem isGate0_iff : ∀ t : Fin cfg0.N, isGate 0#32 (grid0.coords t) ↔ t.val % 4 = 0 :=
  (by decide +kernel : ∀ t : Fin grid0.N, isGate 0#32 (grid0.coords t) ↔ t.val % 4 = 0)
theorem isGate1_iff : ∀ t : Fin cfg0.N, isGate 1#32 (grid0.coords t) ↔ t.val % 4 = 1 :=
  (by decide +kernel : ∀ t : Fin grid0.N, isGate 1#32 (grid0.coords t) ↔ t.val % 4 = 1)
theorem isGate2_iff : ∀ t : Fin cfg0.N, isGate 2#32 (grid0.coords t) ↔ t.val % 4 = 2 :=
  (by decide +kernel : ∀ t : Fin grid0.N, isGate 2#32 (grid0.coords t) ↔ t.val % 4 = 2)
theorem isOutGate_iff : ∀ t : Fin cfg0.N, isOutGate (grid0.coords t) ↔ t.val % 4 = 3 :=
  (by decide +kernel : ∀ t : Fin grid0.N, isOutGate (grid0.coords t) ↔ t.val % 4 = 3)

/-! ## Where the windows are stored into -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- Off the output gate's points the hidden-state window is not stored into … -/
theorem idle6 : ∀ t : Fin cfg0.N, ¬t.val % 4 = 3 → cfg0.idle 6 (grid0.coords t) = true :=
  (by decide +kernel : ∀ t : Fin grid0.N, ¬t.val % 4 = 3 → cfg0.idle 6 (grid0.coords t) = true)
/-- … nor written back; -/
theorem noFlush6 : ∀ t : Fin cfg0.N, ¬t.val % 4 = 3 → (cfg0.win 6).flush t = false :=
  (by decide +kernel : ∀ t : Fin grid0.N, ¬t.val % 4 = 3 → (cfg0.win 6).flush t = false)
/-- at them it is stored into. -/
theorem live6 : ∀ t : Fin cfg0.N, t.val % 4 = 3 → cfg0.idle 6 (grid0.coords t) = false :=
  (by decide +kernel : ∀ t : Fin grid0.N, t.val % 4 = 3 → cfg0.idle 6 (grid0.coords t) = false)
/-- The same for the cell-state window. -/
theorem idle7 : ∀ t : Fin cfg0.N, ¬t.val % 4 = 3 → cfg0.idle 7 (grid0.coords t) = true :=
  (by decide +kernel : ∀ t : Fin grid0.N, ¬t.val % 4 = 3 → cfg0.idle 7 (grid0.coords t) = true)
theorem noFlush7 : ∀ t : Fin cfg0.N, ¬t.val % 4 = 3 → (cfg0.win 7).flush t = false :=
  (by decide +kernel : ∀ t : Fin grid0.N, ¬t.val % 4 = 3 → (cfg0.win 7).flush t = false)
theorem live7 : ∀ t : Fin cfg0.N, t.val % 4 = 3 → cfg0.idle 7 (grid0.coords t) = false :=
  (by decide +kernel : ∀ t : Fin grid0.N, t.val % 4 = 3 → cfg0.idle 7 (grid0.coords t) = false)

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1024 .f32 := win0_7.stage (cfg0.slots t 7)
abbrev hs7 (t : Fin cfg0.N) : (ms7 t).IsWhole := hstage0_7 ((cfg0.slots t 7).cast nbuf0_7)
/-- The three buffers the kernel keeps between points: the input, forget and cell gates of the current batch tile. -/
abbrev keepI : Memref sig .tc .vmem S256x1024 .f32 := Memref.whole cc0_scratch0
abbrev keepF : Memref sig .tc .vmem S256x1024 .f32 := Memref.whole cc0_scratch1
abbrev keepG : Memref sig .tc .vmem S256x1024 .f32 := Memref.whole cc0_scratch2

/-- What the region hands the body besides the windows: the three kept buffers at some contents, and the generator
    register at some state. -/
theorem classInv_eq (c : Dev nD) :
    (Pipeline.ΦA spec0 c : sProp 𝕄)
      = iprop(iprop((∃ d, owns (c : Thread nD τ) keepI fullShare d) ∗ (∃ d, owns (c : Thread nD τ) keepF fullShare d) ∗ (∃ d, owns (c : Thread nD τ) keepG fullShare d)) ∗ (∃ r, prngReg c r)) := by
  unfold Pipeline.ΦA; rw [scopedRest0_eq]; simp only [keepI, keepF, keepG, owns_whole]; try rfl

/-- The whole-block rectangle's offsets are zero. -/
theorem zero2 : (![0, 0] : Fin 2 → ℕ) = fun _ => 0 := by
  funext a; match a with | ⟨0, _⟩ => rfl | ⟨1, _⟩ => rfl

/-- The same for a rank-one block. -/
theorem zero1 : (![0] : Fin 1 → ℕ) = fun _ => 0 := by
  funext a; match a with | ⟨0, _⟩ => rfl

end Cert.Kernel.Body

end
-- ==== Proof.KBRunI.lean ====
/-
  The body at a point of the INPUT gate (gate group 0): it computes the gate pre-activation of its batch tile from the
  blocks of x, h, the two weight blocks and the bias block, and stores its logistic into the first kept buffer; every
  other buffer is handed back as it was found.
-/
import proofs.«180770_j49460843380786_1_alg».proof.Proof.KBCases
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six inputs at their blocks, the two result buffers and the forget and cell buffers at whatever
    they hold, the input-gate buffer at anything — the body runs to the end and leaves the input-gate buffer at the
    logistic of the tile's pre-activation (`k0_pay2` of the blocks), everything else unchanged. -/
theorem runInputGate (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole)
    (hc0 : isGate 0#32 i) (hc1 : ¬isGate 1#32 i) (hc2 : ¬isGate 2#32 i) (hc3 : ¬isOutGate i)
    (x0 x1 x2 : Vec F S256x1024 .f32) (x3 x4 : Vec F S1024x1024 .bf16) (x5 : Vec F S1024 .f32) (y6 y7 s1 s2 : Vec F S256x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (∃ d, owns (c : Thread nD τ) arg10 fullShare d) ∗ owns (c : Thread nD τ) arg11 fullShare s1 ∗ owns (c : Thread nD τ) arg12 fullShare s2
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare (k0_pay2 x0 x1 x3 x4 x5) ∗ owns (c : Thread nD τ) arg11 fullShare s1 ∗ owns (c : Thread nD τ) arg12 fullShare s2) -∗ K ⟨⟩))
        ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K := by
    intro E K
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    isplitl [HS0]
    · iexists _; isplitr; swap; · iexact HS0
      ipureintro
      rw [View.read_writes_eq_canon _ _ _ (fun y => ⟨_, List.mem_singleton_self _, View.mem_set_unit_zero zero2 Facts₀.inb_S256x1024_S256x1024_0_0 y⟩), View.canon_unit_zero zero2]
      simp only [View.readAt_eq_ld, Memref.IsWhole.read_unread, View.ld_unit_zero (S := S256x1024) zero2, View.ld_unit_zero (S := S1024x1024) zero2, View.ld_unit_zero (S := S1024) zero1]
    isplitl [HS1]
    · iexists _; isplitr; · ipureintro; exact hfs1
      iexact HS1
    iexists _; isplitr; · ipureintro; exact hfs2
    iexact HS2

end Cert.Kernel.Body

end
-- ==== Proof.KBRunF.lean ====
/-
  The body at a point of the FORGET gate (gate group 1): the logistic of the tile's pre-activation goes into the second
  kept buffer; every other buffer is handed back as it was found.
-/
import proofs.«180770_j49460843380786_1_alg».proof.Proof.KBCases
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the result buffers and the input and cell buffers at whatever they hold,
    the forget-gate buffer at anything — the body leaves the forget-gate buffer at `k0_pay3` of the blocks and
    everything else unchanged. -/
theorem runForgetGate (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole)
    (hc0 : ¬isGate 0#32 i) (hc1 : isGate 1#32 i) (hc2 : ¬isGate 2#32 i) (hc3 : ¬isOutGate i)
    (x0 x1 x2 : Vec F S256x1024 .f32) (x3 x4 : Vec F S1024x1024 .bf16) (x5 : Vec F S1024 .f32) (y6 y7 s0 s2 : Vec F S256x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ (∃ d, owns (c : Thread nD τ) arg11 fullShare d) ∗ owns (c : Thread nD τ) arg12 fullShare s2
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ owns (c : Thread nD τ) arg11 fullShare (k0_pay3 x0 x1 x3 x4 x5) ∗ owns (c : Thread nD τ) arg12 fullShare s2) -∗ K ⟨⟩))
        ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K := by
    intro E K
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    isplitl [HS0]
    · iexists _; isplitr; · ipureintro; exact hfs0
      iexact HS0
    isplitl [HS1]
    · iexists _; isplitr; swap; · iexact HS1
      ipureintro
      rw [View.read_writes_eq_canon _ _ _ (fun y => ⟨_, List.mem_singleton_self _, View.mem_set_unit_zero zero2 Facts₀.inb_S256x1024_S256x1024_0_0 y⟩), View.canon_unit_zero zero2]
      simp only [View.readAt_eq_ld, Memref.IsWhole.read_unread, View.ld_unit_zero (S := S256x1024) zero2, View.ld_unit_zero (S := S1024x1024) zero2, View.ld_unit_zero (S := S1024) zero1]
    iexists _; isplitr; · ipureintro; exact hfs2
    iexact HS2

end Cert.Kernel.Body

end
-- ==== Proof.KBRunG.lean ====
/-
  The body at a point of the CELL gate (gate group 2): the hyperbolic tangent of the tile's pre-activation goes into the
  third kept buffer; every other buffer is handed back as it was found.
-/
import proofs.«180770_j49460843380786_1_alg».proof.Proof.KBCases
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the result buffers and the input and forget buffers at whatever they
    hold, the cell-gate buffer at anything — the body leaves the cell-gate buffer at `k0_pay4` of the blocks and
    everything else unchanged. -/
theorem runCellGate (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole)
    (hc0 : ¬isGate 0#32 i) (hc1 : ¬isGate 1#32 i) (hc2 : isGate 2#32 i) (hc3 : ¬isOutGate i)
    (x0 x1 x2 : Vec F S256x1024 .f32) (x3 x4 : Vec F S1024x1024 .bf16) (x5 : Vec F S1024 .f32) (y6 y7 s0 s1 : Vec F S256x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ owns (c : Thread nD τ) arg11 fullShare s1 ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ owns (c : Thread nD τ) arg11 fullShare s1 ∗ owns (c : Thread nD τ) arg12 fullShare (k0_pay4 x0 x1 x3 x4 x5)) -∗ K ⟨⟩))
        ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K := by
    intro E K
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    isplitl [HS0]
    · iexists _; isplitr; · ipureintro; exact hfs0
      iexact HS0
    isplitl [HS1]
    · iexists _; isplitr; · ipureintro; exact hfs1
      iexact HS1
    iexists _; isplitr; swap; · iexact HS2
    ipureintro
    rw [View.read_writes_eq_canon _ _ _ (fun y => ⟨_, List.mem_singleton_self _, View.mem_set_unit_zero zero2 Facts₀.inb_S256x1024_S256x1024_0_0 y⟩), View.canon_unit_zero zero2]
    simp only [View.readAt_eq_ld, Memref.IsWhole.read_unread, View.ld_unit_zero (S := S256x1024) zero2, View.ld_unit_zero (S := S1024x1024) zero2, View.ld_unit_zero (S := S1024) zero1]

end Cert.Kernel.Body

end
-- ==== Proof.KBRunO.lean ====
/-
  The body at a point of the OUTPUT gate (gate group 3): it reads the three kept gates and the block of c, forms the new
  cell state  forget · c + input · cell  and the new hidden state  σ(output pre-activation) · tanh(new cell state),
  and stores them into the two result buffers; the kept buffers are handed back as they were.
-/
import proofs.«180770_j49460843380786_1_alg».proof.Proof.KBCases
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the three kept buffers at `s0`, `s1`, `s2`, the two result buffers at
    anything — the body leaves the hidden-state buffer at `k0_pay6` and the cell-state buffer at `k0_pay5` of the blocks
    and the kept gates, and everything else unchanged. -/
theorem runOutputGate (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole)
    (hc0 : ¬isGate 0#32 i) (hc1 : ¬isGate 1#32 i) (hc2 : ¬isGate 2#32 i) (hc3 : isOutGate i)
    (x0 x1 x2 : Vec F S256x1024 .f32) (x3 x4 : Vec F S1024x1024 .bf16) (x5 : Vec F S1024 .f32) (s0 s1 s2 : Vec F S256x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare s0 ∗ owns (c : Thread nD τ) arg11 fullShare s1 ∗ owns (c : Thread nD τ) arg12 fullShare s2
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay6 x0 x1 x3 x4 x5 s1 x2 s0 s2) ∗ owns (c : Thread nD τ) arg9 fullShare (k0_pay5 s1 x2 s0 s2) ∗ owns (c : Thread nD τ) arg10 fullShare s0 ∗ owns (c : Thread nD τ) arg11 fullShare s1 ∗ owns (c : Thread nD τ) arg12 fullShare s2) -∗ K ⟨⟩))
        ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K := by
    intro E K
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_eq_canon _ _ _ (fun y => ⟨_, List.mem_singleton_self _, View.mem_set_unit_zero zero2 Facts₀.inb_S256x1024_S256x1024_0_0 y⟩), View.canon_unit_zero zero2]
      simp only [View.readAt_eq_ld, Memref.IsWhole.read_unread, View.ld_unit_zero (S := S256x1024) zero2, View.ld_unit_zero (S := S1024x1024) zero2, View.ld_unit_zero (S := S1024) zero1]
    isplitl [H7]
    · iexists _; isplitr; swap; · iexact H7
      ipureintro
      rw [View.read_writes_eq_canon _ _ _ (fun y => ⟨_, List.mem_singleton_self _, View.mem_set_unit_zero zero2 Facts₀.inb_S256x1024_S256x1024_0_0 y⟩), View.canon_unit_zero zero2]
      simp only [View.readAt_eq_ld, Memref.IsWhole.read_unread, View.ld_unit_zero (S := S256x1024) zero2, View.ld_unit_zero (S := S1024x1024) zero2, View.ld_unit_zero (S := S1024) zero1]
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.Kernel.Body

end
-- ==== Proof.KBFrame.lean ====
/-
  The launch of the LSTM cell kernel, with what its buffers hold named point by point.  Within a batch tile the points
  of the input, forget and cell gates each leave their gate in a buffer the kernel keeps; the point of the output gate
  finds all three there, and leaves the new hidden state and the new cell state of the tile in the two result windows,
  which are written back at that point only.  The region invariant says which of the kept buffers hold which gate
  before each point; the run follows from the library's launch theorem for an invariant that tracks kept buffers.
-/
import proofs.«180770_j49460843380786_1_alg».proof.Proof.KBRunI
import proofs.«180770_j49460843380786_1_alg».proof.Proof.KBRunF
import proofs.«180770_j49460843380786_1_alg».proof.Proof.KBRunG
import proofs.«180770_j49460843380786_1_alg».proof.Proof.KBRunO

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The gates of a batch tile -/

/-- The grid point of batch tile `b` and gate group `g` (for `b < 16`, `g < 4`: point `4 b + g`). -/
def pt (b g : ℕ) : Fin cfg0.N := ⟨(4 * b + g) % 64, lt_of_lt_of_eq (Nat.mod_lt _ (by decide)) N_0.symm⟩

theorem pt_val (b g : ℕ) : (pt b g).val = (4 * b + g) % 64 := rfl

theorem lt64 (t : Fin cfg0.N) : t.val < 64 := lt_of_lt_of_eq t.isLt (show cfg0.N = 64 from N_0)

/-- The input gate of tile `b`: what the point of gate group 0 computes from its blocks. -/
def gateI (c : Dev nD) (b : ℕ) : Vec F S256x1024 .f32 := k0_pay2 (iblk m c 0 (pt b 0)) (iblk m c 1 (pt b 0)) (iblk m c 3 (pt b 0)) (iblk m c 4 (pt b 0)) (iblk m c 5 (pt b 0))
/-- The forget gate of tile `b`. -/
def gateF (c : Dev nD) (b : ℕ) : Vec F S256x1024 .f32 := k0_pay3 (iblk m c 0 (pt b 1)) (iblk m c 1 (pt b 1)) (iblk m c 3 (pt b 1)) (iblk m c 4 (pt b 1)) (iblk m c 5 (pt b 1))
/-- The cell gate of tile `b`. -/
def gateG (c : Dev nD) (b : ℕ) : Vec F S256x1024 .f32 := k0_pay4 (iblk m c 0 (pt b 2)) (iblk m c 1 (pt b 2)) (iblk m c 3 (pt b 2)) (iblk m c 4 (pt b 2)) (iblk m c 5 (pt b 2))

/-- What the kept buffers are known to hold before position `n`: the gates of the groups of tile `n / 4` already done. -/
def Kept (c : Dev nD) (n : ℕ) (s0 s1 s2 : Vec F S256x1024 .f32) : Prop :=
  (1 ≤ n % 4 → s0 = gateI m c (n / 4)) ∧ (2 ≤ n % 4 → s1 = gateF m c (n / 4)) ∧ (3 ≤ n % 4 → s2 = gateG m c (n / 4))

theorem kept_after_I (c : Dev nD) (t : Fin cfg0.N) (h0 : t.val % 4 = 0) (s1 s2 : Vec F S256x1024 .f32) :
    Kept m c (t.val + 1) (k0_pay2 (iblk m c 0 t) (iblk m c 1 t) (iblk m c 3 t) (iblk m c 4 t) (iblk m c 5 t)) s1 s2 := by
  have hN := lt64 t
  have e : pt ((t.val + 1) / 4) 0 = t := Fin.ext (by rw [pt_val]; omega)
  refine ⟨fun _ => ?_, fun h => absurd h (by omega), fun h => absurd h (by omega)⟩
  unfold gateI; rw [e]

theorem kept_after_F (c : Dev nD) (t : Fin cfg0.N) (h1 : t.val % 4 = 1) (s0 s1 s2 : Vec F S256x1024 .f32)
    (hK : Kept m c t.val s0 s1 s2) : Kept m c (t.val + 1) s0 (k0_pay3 (iblk m c 0 t) (iblk m c 1 t) (iblk m c 3 t) (iblk m c 4 t) (iblk m c 5 t)) s2 := by
  have hN := lt64 t
  have e : pt ((t.val + 1) / 4) 1 = t := Fin.ext (by rw [pt_val]; omega)
  have e4 : (t.val + 1) / 4 = t.val / 4 := by omega
  refine ⟨fun _ => ?_, fun _ => ?_, fun h => absurd h (by omega)⟩
  · rw [e4]; exact hK.1 (by omega)
  · unfold gateF; rw [e]

theorem kept_after_G (c : Dev nD) (t : Fin cfg0.N) (h2 : t.val % 4 = 2) (s0 s1 s2 : Vec F S256x1024 .f32)
    (hK : Kept m c t.val s0 s1 s2) : Kept m c (t.val + 1) s0 s1 (k0_pay4 (iblk m c 0 t) (iblk m c 1 t) (iblk m c 3 t) (iblk m c 4 t) (iblk m c 5 t)) := by
  have hN := lt64 t
  have e : pt ((t.val + 1) / 4) 2 = t := Fin.ext (by rw [pt_val]; omega)
  have e4 : (t.val + 1) / 4 = t.val / 4 := by omega
  refine ⟨fun _ => ?_, fun _ => ?_, fun _ => ?_⟩
  · rw [e4]; exact hK.1 (by omega)
  · rw [e4]; exact hK.2.1 (by omega)
  · unfold gateG; rw [e]

theorem kept_after_O (c : Dev nD) (t : Fin cfg0.N) (h3 : t.val % 4 = 3) (s0 s1 s2 : Vec F S256x1024 .f32) :
    Kept m c (t.val + 1) s0 s1 s2 :=
  ⟨fun h => absurd h (by omega), fun h => absurd h (by omega), fun h => absurd h (by omega)⟩

/-- The region invariant before position `n`: the three kept buffers at contents that are the tile's gates as far as they
    are done, and the generator register at some state. -/
def Inv (c : Dev nD) (n : ℕ) : sProp 𝕄 :=
  iprop((∃ s0 s1 s2, ⌜Kept m c n s0 s1 s2⌝ ∗ owns (c : Thread nD τ) keepI fullShare s0 ∗ owns (c : Thread nD τ) keepF fullShare s1 ∗ owns (c : Thread nD τ) keepG fullShare s2) ∗ (∃ r, prngReg c r))

/-! ## What the result windows hold -/

/-- The new cell state of the tile of point `t`: forget · c + input · cell, over the tile's kept gates and the block of `c`. -/
def outC (c : Dev nD) (t : Fin cfg0.N) : Vec F S256x1024 .f32 :=
  k0_pay5 (gateF m c (t.val / 4)) (iblk m c 2 t) (gateI m c (t.val / 4)) (gateG m c (t.val / 4))

/-- The new hidden state of the tile of point `t`: the logistic of the pre-activation of `t`'s blocks times the hyperbolic
    tangent of the new cell state. -/
def outH (c : Dev nD) (t : Fin cfg0.N) : Vec F S256x1024 .f32 :=
  k0_pay6 (iblk m c 0 t) (iblk m c 1 t) (iblk m c 3 t) (iblk m c 4 t) (iblk m c 5 t) (gateF m c (t.val / 4)) (iblk m c 2 t) (gateI m c (t.val / 4)) (gateG m c (t.val / 4))

/-! ## The proof data -/

/-- The arrays as the region finds them; after the body at point `t` each input's buffer at its block, the result
    windows at the tile's new hidden and cell states (read only at the output gate's points, where they are stored and
    written back); the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH m c t
    | ⟨7, _⟩ => outC m c t
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH m c t := by dsimp only [dats]
theorem after7 (c : Dev nD) (t : Fin cfg0.N) : (dats m 0 c).after 7 t = outC m c t := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) (h3 : t.val % 4 = 3) : (dats m 0 c).leavesExact 6 t = owns (c : Thread nD τ) (ms6 t) fullShare (outH m c t) := by
  unfold Dat.leavesExact; rw [live6 t h3, after6]
theorem leaves7 (c : Dev nD) (t : Fin cfg0.N) (h3 : t.val % 4 = 3) : (dats m 0 c).leavesExact 7 t = owns (c : Thread nD τ) (ms7 t) fullShare (outC m c t) := by
  unfold Dat.leavesExact; rw [live7 t h3, after7]

set_option maxHeartbeats 3200000 in
/-- The body at any point: the inputs' memrefs hold their blocks; the point's gate group says which conditional runs;
    the invariant hands over the kept buffers with what is known of them and takes them back with the point's gate added
    (after the output gate's point nothing is known any more: the next tile starts). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [leaves0, leaves1, leaves2, leaves3, leaves4, leaves5]
  have hN := lt64 t
  unfold Inv
  by_cases h0 : t.val % 4 = 0
  · rw [Dat.leavesExact_idle (dats m 0 c) 6 t (idle6 t (by omega)) (noFlush6 t (by omega)),
      Dat.leavesExact_idle (dats m 0 c) 7 t (idle7 t (by omega)) (noFlush7 t (by omega))]
    iintro ⟨⟨⟨%s0, %s1, %s2, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runInputGate c (grid0.coords t) (ms0 t) (hs0 t) (ms1 t) (hs1 t) (ms2 t) (hs2 t) (ms3 t) (hs3 t) (ms4 t) (hs4 t) (ms5 t) (hs5 t) (ms6 t) (hs6 t) (ms7 t) (hs7 t) keepI (Memref.isWhole_whole _) keepF (Memref.isWhole_whole _) keepG (Memref.isWhole_whole _)
      ((isGate0_iff t).mpr h0) (fun h => absurd ((isGate1_iff t).mp h) (by omega)) (fun h => absurd ((isGate2_iff t).mp h) (by omega)) (fun h => absurd ((isOutGate_iff t).mp h) (by omega))
      (iblk m c 0 t) (iblk m c 1 t) (iblk m c 2 t) (iblk m c 3 t) (iblk m c 4 t) (iblk m c 5 t) ((dats m 0 c).before 6 t d6) ((dats m 0 c).before 7 t d7) s1 s2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · iexists _, _, _
        isplitr
        · ipureintro; exact kept_after_I m c t h0 s1 s2
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h1 : t.val % 4 = 1
  · rw [Dat.leavesExact_idle (dats m 0 c) 6 t (idle6 t (by omega)) (noFlush6 t (by omega)),
      Dat.leavesExact_idle (dats m 0 c) 7 t (idle7 t (by omega)) (noFlush7 t (by omega))]
    iintro ⟨⟨⟨%s0, %s1, %s2, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runForgetGate c (grid0.coords t) (ms0 t) (hs0 t) (ms1 t) (hs1 t) (ms2 t) (hs2 t) (ms3 t) (hs3 t) (ms4 t) (hs4 t) (ms5 t) (hs5 t) (ms6 t) (hs6 t) (ms7 t) (hs7 t) keepI (Memref.isWhole_whole _) keepF (Memref.isWhole_whole _) keepG (Memref.isWhole_whole _)
      (fun h => absurd ((isGate0_iff t).mp h) (by omega)) ((isGate1_iff t).mpr h1) (fun h => absurd ((isGate2_iff t).mp h) (by omega)) (fun h => absurd ((isOutGate_iff t).mp h) (by omega))
      (iblk m c 0 t) (iblk m c 1 t) (iblk m c 2 t) (iblk m c 3 t) (iblk m c 4 t) (iblk m c 5 t) ((dats m 0 c).before 6 t d6) ((dats m 0 c).before 7 t d7) s0 s2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexists _; iexact HS1
    isplitl [HS2]; · iexact HS2
    iintro ⟨H0, H1, H2, H3, H4, H5, H6, H7, HS0, HS1, HS2⟩
    isplitl [HS0 HS1 HS2 Hg]
    · isplitl [HS0 HS1 HS2]
      · iexists _, _, _
        isplitr
        · ipureintro; exact kept_after_F m c t h1 s0 s1 s2 hK
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h2 : t.val % 4 = 2
  · rw [Dat.leavesExact_idle (dats m 0 c) 6 t (idle6 t (by omega)) (noFlush6 t (by omega)),
      Dat.leavesExact_idle (dats m 0 c) 7 t (idle7 t (by omega)) (noFlush7 t (by omega))]
    iintro ⟨⟨⟨%s0, %s1, %s2, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runCellGate c (grid0.coords t) (ms0 t) (hs0 t) (ms1 t) (hs1 t) (ms2 t) (hs2 t) (ms3 t) (hs3 t) (ms4 t) (hs4 t) (ms5 t) (hs5 t) (ms6 t) (hs6 t) (ms7 t) (hs7 t) keepI (Memref.isWhole_whole _) keepF (Memref.isWhole_whole _) keepG (Memref.isWhole_whole _)
      (fun h => absurd ((isGate0_iff t).mp h) (by omega)) (fun h => absurd ((isGate1_iff t).mp h) (by omega)) ((isGate2_iff t).mpr h2) (fun h => absurd ((isOutGate_iff t).mp h) (by omega))
      (iblk m c 0 t) (iblk m c 1 t) (iblk m c 2 t) (iblk m c 3 t) (iblk m c 4 t) (iblk m c 5 t) ((dats m 0 c).before 6 t d6) ((dats m 0 c).before 7 t d7) s0 s1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexists _; iexact HS2
    iintro ⟨H0, H1, H2, H3, H4, H5, H6, H7, HS0, HS1, HS2⟩
    isplitl [HS0 HS1 HS2 Hg]
    · isplitl [HS0 HS1 HS2]
      · iexists _, _, _
        isplitr
        · ipureintro; exact kept_after_G m c t h2 s0 s1 s2 hK
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  have h3 : t.val % 4 = 3 := by omega
  rw [leaves6 m c t h3, leaves7 m c t h3]
  unfold outH outC
  iintro ⟨⟨⟨%s0, %s1, %s2, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨e0, e1, e2⟩ := hK
  obtain rfl := e0 (by omega); obtain rfl := e1 (by omega); obtain rfl := e2 (by omega)
  iapply (runOutputGate c (grid0.coords t) (ms0 t) (hs0 t) (ms1 t) (hs1 t) (ms2 t) (hs2 t) (ms3 t) (hs3 t) (ms4 t) (hs4 t) (ms5 t) (hs5 t) (ms6 t) (hs6 t) (ms7 t) (hs7 t) keepI (Memref.isWhole_whole _) keepF (Memref.isWhole_whole _) keepG (Memref.isWhole_whole _)
    (fun h => absurd ((isGate0_iff t).mp h) (by omega)) (fun h => absurd ((isGate1_iff t).mp h) (by omega)) (fun h => absurd ((isGate2_iff t).mp h) (by omega)) ((isOutGate_iff t).mpr h3)
    (iblk m c 0 t) (iblk m c 1 t) (iblk m c 2 t) (iblk m c 3 t) (iblk m c 4 t) (iblk m c 5 t) (gateI m c (t.val / 4)) (gateF m c (t.val / 4)) (gateG m c (t.val / 4)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · iexists (gateI m c (t.val / 4)), (gateF m c (t.val / 4)), (gateG m c (t.val / 4))
      isplitr
      · ipureintro; exact kept_after_O m c t h3 _ _ _
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the kept buffers. -/
theorem hin (c : Dev nD) : Pipeline.ΦA spec0 c ⊢ (dats m 0 c).Φ 0 := by
  rw [show (dats m 0 c).Φ 0 = Inv m c 0 from rfl, classInv_eq]; unfold Inv
  iintro ⟨⟨⟨%s0, HS0⟩, ⟨%s1, HS1⟩, ⟨%s2, HS2⟩⟩, Hg⟩
  isplitl [HS0 HS1 HS2]
  · iexists s0, s1, s2
    isplitr
    · ipureintro; exact ⟨fun h => absurd h (by decide), fun h => absurd h (by decide), fun h => absurd h (by decide)⟩
    isplitl [HS0]; · iexact HS0
    isplitl [HS1]; · iexact HS1
    iexact HS2
  iexact Hg

/-- After the last point the invariant gives the kept buffers back at some contents. -/
theorem hout (c : Dev nD) : (dats m 0 c).Φ (Fin.last cfg0.N) ⊢ Pipeline.ΦA spec0 c := by
  rw [show (dats m 0 c).Φ (Fin.last cfg0.N) = Inv m c (Fin.last cfg0.N).val from rfl, classInv_eq]; unfold Inv
  iintro ⟨⟨%s0, %s1, %s2, -, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has every array of the pipeline at what the
    library computes from the proof data — an input as the region found it, a result array with each tile's block
    overwritten by what the output gate's point left — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.KICases.lean ====
/-
  The grid of the LSTM cell kernel has 16 × 4 points: point `t` works on batch tile `t / 4` and on gate group
  `t % 4` (input, forget, cell, output).  The body has four conditionals, one per gate group; the first three store a
  gate into a buffer the kernel keeps between points, the last combines the three kept gates with the output gate and
  stores the two results.  This module decides, over the 64 points, which conditional is taken where, and where the two
  result windows are stored into and written back: only at the points of the output gate.
-/
import proofs.«180770_j49460843380786_1_alg».proof.Proof.Gen.KernelIdeal.Frame
import proofs.«180770_j49460843380786_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditionals -/

/-- "The point's gate group is `g`", as the body computes it from the second grid coordinate. -/
abbrev isGate (g : BitVec 32) (i : grid0.Coords) : Prop :=
  (Scalar.cmpi .ne (Scalar.extui (Scalar.cmpi .eq (BitVec.ofNat 32 (i 1).val) g)) 0#32) = 1#1

/-- The last conditional's condition, which the program names. -/
abbrev isOutGate (i : grid0.Coords) : Prop := k0_cond4 i = 1#1

theorem isGate0_iff : ∀ t : Fin cfg0.N, isGate 0#32 (grid0.coords t) ↔ t.val % 4 = 0 :=
  (by decide +kernel : ∀ t : Fin grid0.N, isGate 0#32 (grid0.coords t) ↔ t.val % 4 = 0)
theorem isGate1_iff : ∀ t : Fin cfg0.N, isGate 1#32 (grid0.coords t) ↔ t.val % 4 = 1 :=
  (by decide +kernel : ∀ t : Fin grid0.N, isGate 1#32 (grid0.coords t) ↔ t.val % 4 = 1)
theorem isGate2_iff : ∀ t : Fin cfg0.N, isGate 2#32 (grid0.coords t) ↔ t.val % 4 = 2 :=
  (by decide +kernel : ∀ t : Fin grid0.N, isGate 2#32 (grid0.coords t) ↔ t.val % 4 = 2)
theorem isOutGate_iff : ∀ t : Fin cfg0.N, isOutGate (grid0.coords t) ↔ t.val % 4 = 3 :=
  (by decide +kernel : ∀ t : Fin grid0.N, isOutGate (grid0.coords t) ↔ t.val % 4 = 3)

/-! ## Where the windows are stored into -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- Off the output gate's points the hidden-state window is not stored into … -/
theorem idle6 : ∀ t : Fin cfg0.N, ¬t.val % 4 = 3 → cfg0.idle 6 (grid0.coords t) = true :=
  (by decide +kernel : ∀ t : Fin grid0.N, ¬t.val % 4 = 3 → cfg0.idle 6 (grid0.coords t) = true)
/-- … nor written back; -/
theorem noFlush6 : ∀ t : Fin cfg0.N, ¬t.val % 4 = 3 → (cfg0.win 6).flush t = false :=
  (by decide +kernel : ∀ t : Fin grid0.N, ¬t.val % 4 = 3 → (cfg0.win 6).flush t = false)
/-- at them it is stored into. -/
theorem live6 : ∀ t : Fin cfg0.N, t.val % 4 = 3 → cfg0.idle 6 (grid0.coords t) = false :=
  (by decide +kernel : ∀ t : Fin grid0.N, t.val % 4 = 3 → cfg0.idle 6 (grid0.coords t) = false)
/-- The same for the cell-state window. -/
theorem idle7 : ∀ t : Fin cfg0.N, ¬t.val % 4 = 3 → cfg0.idle 7 (grid0.coords t) = true :=
  (by decide +kernel : ∀ t : Fin grid0.N, ¬t.val % 4 = 3 → cfg0.idle 7 (grid0.coords t) = true)
theorem noFlush7 : ∀ t : Fin cfg0.N, ¬t.val % 4 = 3 → (cfg0.win 7).flush t = false :=
  (by decide +kernel : ∀ t : Fin grid0.N, ¬t.val % 4 = 3 → (cfg0.win 7).flush t = false)
theorem live7 : ∀ t : Fin cfg0.N, t.val % 4 = 3 → cfg0.idle 7 (grid0.coords t) = false :=
  (by decide +kernel : ∀ t : Fin grid0.N, t.val % 4 = 3 → cfg0.idle 7 (grid0.coords t) = false)

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1024 .f32 := win0_7.stage (cfg0.slots t 7)
abbrev hs7 (t : Fin cfg0.N) : (ms7 t).IsWhole := hstage0_7 ((cfg0.slots t 7).cast nbuf0_7)
/-- The three buffers the kernel keeps between points: the input, forget and cell gates of the current batch tile. -/
abbrev keepI : Memref sig .tc .vmem S256x1024 .f32 := Memref.whole cc0_scratch0
abbrev keepF : Memref sig .tc .vmem S256x1024 .f32 := Memref.whole cc0_scratch1
abbrev keepG : Memref sig .tc .vmem S256x1024 .f32 := Memref.whole cc0_scratch2

/-- What the region hands the body besides the windows: the three kept buffers at some contents, and the generator
    register at some state. -/
theorem classInv_eq (c : Dev nD) :
    (Pipeline.ΦA spec0 c : sProp 𝕄)
      = iprop(iprop((∃ d, owns (c : Thread nD τ) keepI fullShare d) ∗ (∃ d, owns (c : Thread nD τ) keepF fullShare d) ∗ (∃ d, owns (c : Thread nD τ) keepG fullShare d)) ∗ (∃ r, prngReg c r)) := by
  unfold Pipeline.ΦA; rw [scopedRest0_eq]; simp only [keepI, keepF, keepG, owns_whole]; try rfl

/-- The whole-block rectangle's offsets are zero. -/
theorem zero2 : (![0, 0] : Fin 2 → ℕ) = fun _ => 0 := by
  funext a; match a with | ⟨0, _⟩ => rfl | ⟨1, _⟩ => rfl

/-- The same for a rank-one block. -/
theorem zero1 : (![0] : Fin 1 → ℕ) = fun _ => 0 := by
  funext a; match a with | ⟨0, _⟩ => rfl

end Cert.KernelIdeal.Body

end
-- ==== Proof.KIRunI.lean ====
/-
  The body at a point of the INPUT gate (gate group 0): it computes the gate pre-activation of its batch tile from the
  blocks of x, h, the two weight blocks and the bias block, and stores its logistic into the first kept buffer; every
  other buffer is handed back as it was found.
-/
import proofs.«180770_j49460843380786_1_alg».proof.Proof.KICases
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six inputs at their blocks, the two result buffers and the forget and cell buffers at whatever
    they hold, the input-gate buffer at anything — the body runs to the end and leaves the input-gate buffer at the
    logistic of the tile's pre-activation (`k0_pay2` of the blocks), everything else unchanged. -/
theorem runInputGate (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole)
    (hc0 : isGate 0#32 i) (hc1 : ¬isGate 1#32 i) (hc2 : ¬isGate 2#32 i) (hc3 : ¬isOutGate i)
    (x0 x1 x2 : Vec F S256x1024 .f32) (x3 x4 : Vec F S1024x1024 .bf16) (x5 : Vec F S1024 .f32) (y6 y7 s1 s2 : Vec F S256x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (∃ d, owns (c : Thread nD τ) arg10 fullShare d) ∗ owns (c : Thread nD τ) arg11 fullShare s1 ∗ owns (c : Thread nD τ) arg12 fullShare s2
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare (k0_pay2 x0 x1 x3 x4 x5) ∗ owns (c : Thread nD τ) arg11 fullShare s1 ∗ owns (c : Thread nD τ) arg12 fullShare s2) -∗ K ⟨⟩))
        ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K := by
    intro E K
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    isplitl [HS0]
    · iexists _; isplitr; swap; · iexact HS0
      ipureintro
      rw [View.read_writes_eq_canon _ _ _ (fun y => ⟨_, List.mem_singleton_self _, View.mem_set_unit_zero zero2 Facts₀.inb_S256x1024_S256x1024_0_0 y⟩), View.canon_unit_zero zero2]
      simp only [View.readAt_eq_ld, Memref.IsWhole.read_unread, View.ld_unit_zero (S := S256x1024) zero2, View.ld_unit_zero (S := S1024x1024) zero2, View.ld_unit_zero (S := S1024) zero1]
    isplitl [HS1]
    · iexists _; isplitr; · ipureintro; exact hfs1
      iexact HS1
    iexists _; isplitr; · ipureintro; exact hfs2
    iexact HS2

end Cert.KernelIdeal.Body

end
-- ==== Proof.KIRunF.lean ====
/-
  The body at a point of the FORGET gate (gate group 1): the logistic of the tile's pre-activation goes into the second
  kept buffer; every other buffer is handed back as it was found.
-/
import proofs.«180770_j49460843380786_1_alg».proof.Proof.KICases
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the result buffers and the input and cell buffers at whatever they hold,
    the forget-gate buffer at anything — the body leaves the forget-gate buffer at `k0_pay3` of the blocks and
    everything else unchanged. -/
theorem runForgetGate (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole)
    (hc0 : ¬isGate 0#32 i) (hc1 : isGate 1#32 i) (hc2 : ¬isGate 2#32 i) (hc3 : ¬isOutGate i)
    (x0 x1 x2 : Vec F S256x1024 .f32) (x3 x4 : Vec F S1024x1024 .bf16) (x5 : Vec F S1024 .f32) (y6 y7 s0 s2 : Vec F S256x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ (∃ d, owns (c : Thread nD τ) arg11 fullShare d) ∗ owns (c : Thread nD τ) arg12 fullShare s2
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ owns (c : Thread nD τ) arg11 fullShare (k0_pay3 x0 x1 x3 x4 x5) ∗ owns (c : Thread nD τ) arg12 fullShare s2) -∗ K ⟨⟩))
        ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K := by
    intro E K
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    isplitl [HS0]
    · iexists _; isplitr; · ipureintro; exact hfs0
      iexact HS0
    isplitl [HS1]
    · iexists _; isplitr; swap; · iexact HS1
      ipureintro
      rw [View.read_writes_eq_canon _ _ _ (fun y => ⟨_, List.mem_singleton_self _, View.mem_set_unit_zero zero2 Facts₀.inb_S256x1024_S256x1024_0_0 y⟩), View.canon_unit_zero zero2]
      simp only [View.readAt_eq_ld, Memref.IsWhole.read_unread, View.ld_unit_zero (S := S256x1024) zero2, View.ld_unit_zero (S := S1024x1024) zero2, View.ld_unit_zero (S := S1024) zero1]
    iexists _; isplitr; · ipureintro; exact hfs2
    iexact HS2

end Cert.KernelIdeal.Body

end
-- ==== Proof.KIRunG.lean ====
/-
  The body at a point of the CELL gate (gate group 2): the hyperbolic tangent of the tile's pre-activation goes into the
  third kept buffer; every other buffer is handed back as it was found.
-/
import proofs.«180770_j49460843380786_1_alg».proof.Proof.KICases
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the result buffers and the input and forget buffers at whatever they
    hold, the cell-gate buffer at anything — the body leaves the cell-gate buffer at `k0_pay4` of the blocks and
    everything else unchanged. -/
theorem runCellGate (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole)
    (hc0 : ¬isGate 0#32 i) (hc1 : ¬isGate 1#32 i) (hc2 : isGate 2#32 i) (hc3 : ¬isOutGate i)
    (x0 x1 x2 : Vec F S256x1024 .f32) (x3 x4 : Vec F S1024x1024 .bf16) (x5 : Vec F S1024 .f32) (y6 y7 s0 s1 : Vec F S256x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ owns (c : Thread nD τ) arg11 fullShare s1 ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ owns (c : Thread nD τ) arg11 fullShare s1 ∗ owns (c : Thread nD τ) arg12 fullShare (k0_pay4 x0 x1 x3 x4 x5)) -∗ K ⟨⟩))
        ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K := by
    intro E K
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [H7]
    · iexists _; isplitr; · ipureintro; exact hf7
      iexact H7
    isplitl [HS0]
    · iexists _; isplitr; · ipureintro; exact hfs0
      iexact HS0
    isplitl [HS1]
    · iexists _; isplitr; · ipureintro; exact hfs1
      iexact HS1
    iexists _; isplitr; swap; · iexact HS2
    ipureintro
    rw [View.read_writes_eq_canon _ _ _ (fun y => ⟨_, List.mem_singleton_self _, View.mem_set_unit_zero zero2 Facts₀.inb_S256x1024_S256x1024_0_0 y⟩), View.canon_unit_zero zero2]
    simp only [View.readAt_eq_ld, Memref.IsWhole.read_unread, View.ld_unit_zero (S := S256x1024) zero2, View.ld_unit_zero (S := S1024x1024) zero2, View.ld_unit_zero (S := S1024) zero1]

end Cert.KernelIdeal.Body

end
-- ==== Proof.KIRunO.lean ====
/-
  The body at a point of the OUTPUT gate (gate group 3): it reads the three kept gates and the block of c, forms the new
  cell state  forget · c + input · cell  and the new hidden state  σ(output pre-activation) · tanh(new cell state),
  and stores them into the two result buffers; the kept buffers are handed back as they were.
-/
import proofs.«180770_j49460843380786_1_alg».proof.Proof.KICases
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the inputs at their blocks, the three kept buffers at `s0`, `s1`, `s2`, the two result buffers at
    anything — the body leaves the hidden-state buffer at `k0_pay6` and the cell-state buffer at `k0_pay5` of the blocks
    and the kept gates, and everything else unchanged. -/
theorem runOutputGate (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole)
    (hc0 : ¬isGate 0#32 i) (hc1 : ¬isGate 1#32 i) (hc2 : ¬isGate 2#32 i) (hc3 : isOutGate i)
    (x0 x1 x2 : Vec F S256x1024 .f32) (x3 x4 : Vec F S1024x1024 .bf16) (x5 : Vec F S1024 .f32) (s0 s1 s2 : Vec F S256x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare s0 ∗ owns (c : Thread nD τ) arg11 fullShare s1 ∗ owns (c : Thread nD τ) arg12 fullShare s2
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay6 x0 x1 x3 x4 x5 s1 x2 s0 s2) ∗ owns (c : Thread nD τ) arg9 fullShare (k0_pay5 s1 x2 s0 s2) ∗ owns (c : Thread nD τ) arg10 fullShare s0 ∗ owns (c : Thread nD τ) arg11 fullShare s1 ∗ owns (c : Thread nD τ) arg12 fullShare s2) -∗ K ⟨⟩))
        ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K := by
    intro E K
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_eq_canon _ _ _ (fun y => ⟨_, List.mem_singleton_self _, View.mem_set_unit_zero zero2 Facts₀.inb_S256x1024_S256x1024_0_0 y⟩), View.canon_unit_zero zero2]
      simp only [View.readAt_eq_ld, Memref.IsWhole.read_unread, View.ld_unit_zero (S := S256x1024) zero2, View.ld_unit_zero (S := S1024x1024) zero2, View.ld_unit_zero (S := S1024) zero1]
    isplitl [H7]
    · iexists _; isplitr; swap; · iexact H7
      ipureintro
      rw [View.read_writes_eq_canon _ _ _ (fun y => ⟨_, List.mem_singleton_self _, View.mem_set_unit_zero zero2 Facts₀.inb_S256x1024_S256x1024_0_0 y⟩), View.canon_unit_zero zero2]
      simp only [View.readAt_eq_ld, Memref.IsWhole.read_unread, View.ld_unit_zero (S := S256x1024) zero2, View.ld_unit_zero (S := S1024x1024) zero2, View.ld_unit_zero (S := S1024) zero1]
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.KernelIdeal.Body

end
-- ==== Proof.KIFrame.lean ====
/-
  The launch of the LSTM cell kernel, with what its buffers hold named point by point.  Within a batch tile the points
  of the input, forget and cell gates each leave their gate in a buffer the kernel keeps; the point of the output gate
  finds all three there, and leaves the new hidden state and the new cell state of the tile in the two result windows,
  which are written back at that point only.  The region invariant says which of the kept buffers hold which gate
  before each point; the run follows from the library's launch theorem for an invariant that tracks kept buffers.
-/
import proofs.«180770_j49460843380786_1_alg».proof.Proof.KIRunI
import proofs.«180770_j49460843380786_1_alg».proof.Proof.KIRunF
import proofs.«180770_j49460843380786_1_alg».proof.Proof.KIRunG
import proofs.«180770_j49460843380786_1_alg».proof.Proof.KIRunO

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The gates of a batch tile -/

/-- The grid point of batch tile `b` and gate group `g` (for `b < 16`, `g < 4`: point `4 b + g`). -/
def pt (b g : ℕ) : Fin cfg0.N := ⟨(4 * b + g) % 64, lt_of_lt_of_eq (Nat.mod_lt _ (by decide)) N_0.symm⟩

theorem pt_val (b g : ℕ) : (pt b g).val = (4 * b + g) % 64 := rfl

theorem lt64 (t : Fin cfg0.N) : t.val < 64 := lt_of_lt_of_eq t.isLt (show cfg0.N = 64 from N_0)

/-- The input gate of tile `b`: what the point of gate group 0 computes from its blocks. -/
def gateI (c : Dev nD) (b : ℕ) : Vec F S256x1024 .f32 := k0_pay2 (iblk m c 0 (pt b 0)) (iblk m c 1 (pt b 0)) (iblk m c 3 (pt b 0)) (iblk m c 4 (pt b 0)) (iblk m c 5 (pt b 0))
/-- The forget gate of tile `b`. -/
def gateF (c : Dev nD) (b : ℕ) : Vec F S256x1024 .f32 := k0_pay3 (iblk m c 0 (pt b 1)) (iblk m c 1 (pt b 1)) (iblk m c 3 (pt b 1)) (iblk m c 4 (pt b 1)) (iblk m c 5 (pt b 1))
/-- The cell gate of tile `b`. -/
def gateG (c : Dev nD) (b : ℕ) : Vec F S256x1024 .f32 := k0_pay4 (iblk m c 0 (pt b 2)) (iblk m c 1 (pt b 2)) (iblk m c 3 (pt b 2)) (iblk m c 4 (pt b 2)) (iblk m c 5 (pt b 2))

/-- What the kept buffers are known to hold before position `n`: the gates of the groups of tile `n / 4` already done. -/
def Kept (c : Dev nD) (n : ℕ) (s0 s1 s2 : Vec F S256x1024 .f32) : Prop :=
  (1 ≤ n % 4 → s0 = gateI m c (n / 4)) ∧ (2 ≤ n % 4 → s1 = gateF m c (n / 4)) ∧ (3 ≤ n % 4 → s2 = gateG m c (n / 4))

theorem kept_after_I (c : Dev nD) (t : Fin cfg0.N) (h0 : t.val % 4 = 0) (s1 s2 : Vec F S256x1024 .f32) :
    Kept m c (t.val + 1) (k0_pay2 (iblk m c 0 t) (iblk m c 1 t) (iblk m c 3 t) (iblk m c 4 t) (iblk m c 5 t)) s1 s2 := by
  have hN := lt64 t
  have e : pt ((t.val + 1) / 4) 0 = t := Fin.ext (by rw [pt_val]; omega)
  refine ⟨fun _ => ?_, fun h => absurd h (by omega), fun h => absurd h (by omega)⟩
  unfold gateI; rw [e]

theorem kept_after_F (c : Dev nD) (t : Fin cfg0.N) (h1 : t.val % 4 = 1) (s0 s1 s2 : Vec F S256x1024 .f32)
    (hK : Kept m c t.val s0 s1 s2) : Kept m c (t.val + 1) s0 (k0_pay3 (iblk m c 0 t) (iblk m c 1 t) (iblk m c 3 t) (iblk m c 4 t) (iblk m c 5 t)) s2 := by
  have hN := lt64 t
  have e : pt ((t.val + 1) / 4) 1 = t := Fin.ext (by rw [pt_val]; omega)
  have e4 : (t.val + 1) / 4 = t.val / 4 := by omega
  refine ⟨fun _ => ?_, fun _ => ?_, fun h => absurd h (by omega)⟩
  · rw [e4]; exact hK.1 (by omega)
  · unfold gateF; rw [e]

theorem kept_after_G (c : Dev nD) (t : Fin cfg0.N) (h2 : t.val % 4 = 2) (s0 s1 s2 : Vec F S256x1024 .f32)
    (hK : Kept m c t.val s0 s1 s2) : Kept m c (t.val + 1) s0 s1 (k0_pay4 (iblk m c 0 t) (iblk m c 1 t) (iblk m c 3 t) (iblk m c 4 t) (iblk m c 5 t)) := by
  have hN := lt64 t
  have e : pt ((t.val + 1) / 4) 2 = t := Fin.ext (by rw [pt_val]; omega)
  have e4 : (t.val + 1) / 4 = t.val / 4 := by omega
  refine ⟨fun _ => ?_, fun _ => ?_, fun _ => ?_⟩
  · rw [e4]; exact hK.1 (by omega)
  · rw [e4]; exact hK.2.1 (by omega)
  · unfold gateG; rw [e]

theorem kept_after_O (c : Dev nD) (t : Fin cfg0.N) (h3 : t.val % 4 = 3) (s0 s1 s2 : Vec F S256x1024 .f32) :
    Kept m c (t.val + 1) s0 s1 s2 :=
  ⟨fun h => absurd h (by omega), fun h => absurd h (by omega), fun h => absurd h (by omega)⟩

/-- The region invariant before position `n`: the three kept buffers at contents that are the tile's gates as far as they
    are done, and the generator register at some state. -/
def Inv (c : Dev nD) (n : ℕ) : sProp 𝕄 :=
  iprop((∃ s0 s1 s2, ⌜Kept m c n s0 s1 s2⌝ ∗ owns (c : Thread nD τ) keepI fullShare s0 ∗ owns (c : Thread nD τ) keepF fullShare s1 ∗ owns (c : Thread nD τ) keepG fullShare s2) ∗ (∃ r, prngReg c r))

/-! ## What the result windows hold -/

/-- The new cell state of the tile of point `t`: forget · c + input · cell, over the tile's kept gates and the block of `c`. -/
def outC (c : Dev nD) (t : Fin cfg0.N) : Vec F S256x1024 .f32 :=
  k0_pay5 (gateF m c (t.val / 4)) (iblk m c 2 t) (gateI m c (t.val / 4)) (gateG m c (t.val / 4))

/-- The new hidden state of the tile of point `t`: the logistic of the pre-activation of `t`'s blocks times the hyperbolic
    tangent of the new cell state. -/
def outH (c : Dev nD) (t : Fin cfg0.N) : Vec F S256x1024 .f32 :=
  k0_pay6 (iblk m c 0 t) (iblk m c 1 t) (iblk m c 3 t) (iblk m c 4 t) (iblk m c 5 t) (gateF m c (t.val / 4)) (iblk m c 2 t) (gateI m c (t.val / 4)) (gateG m c (t.val / 4))

/-! ## The proof data -/

/-- The arrays as the region finds them; after the body at point `t` each input's buffer at its block, the result
    windows at the tile's new hidden and cell states (read only at the output gate's points, where they are stored and
    written back); the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH m c t
    | ⟨7, _⟩ => outC m c t
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH m c t := by dsimp only [dats]
theorem after7 (c : Dev nD) (t : Fin cfg0.N) : (dats m 0 c).after 7 t = outC m c t := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) (h3 : t.val % 4 = 3) : (dats m 0 c).leavesExact 6 t = owns (c : Thread nD τ) (ms6 t) fullShare (outH m c t) := by
  unfold Dat.leavesExact; rw [live6 t h3, after6]
theorem leaves7 (c : Dev nD) (t : Fin cfg0.N) (h3 : t.val % 4 = 3) : (dats m 0 c).leavesExact 7 t = owns (c : Thread nD τ) (ms7 t) fullShare (outC m c t) := by
  unfold Dat.leavesExact; rw [live7 t h3, after7]

set_option maxHeartbeats 3200000 in
/-- The body at any point: the inputs' memrefs hold their blocks; the point's gate group says which conditional runs;
    the invariant hands over the kept buffers with what is known of them and takes them back with the point's gate added
    (after the output gate's point nothing is known any more: the next tile starts). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [leaves0, leaves1, leaves2, leaves3, leaves4, leaves5]
  have hN := lt64 t
  unfold Inv
  by_cases h0 : t.val % 4 = 0
  · rw [Dat.leavesExact_idle (dats m 0 c) 6 t (idle6 t (by omega)) (noFlush6 t (by omega)),
      Dat.leavesExact_idle (dats m 0 c) 7 t (idle7 t (by omega)) (noFlush7 t (by omega))]
    iintro ⟨⟨⟨%s0, %s1, %s2, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runInputGate c (grid0.coords t) (ms0 t) (hs0 t) (ms1 t) (hs1 t) (ms2 t) (hs2 t) (ms3 t) (hs3 t) (ms4 t) (hs4 t) (ms5 t) (hs5 t) (ms6 t) (hs6 t) (ms7 t) (hs7 t) keepI (Memref.isWhole_whole _) keepF (Memref.isWhole_whole _) keepG (Memref.isWhole_whole _)
      ((isGate0_iff t).mpr h0) (fun h => absurd ((isGate1_iff t).mp h) (by omega)) (fun h => absurd ((isGate2_iff t).mp h) (by omega)) (fun h => absurd ((isOutGate_iff t).mp h) (by omega))
      (iblk m c 0 t) (iblk m c 1 t) (iblk m c 2 t) (iblk m c 3 t) (iblk m c 4 t) (iblk m c 5 t) ((dats m 0 c).before 6 t d6) ((dats m 0 c).before 7 t d7) s1 s2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · iexists _, _, _
        isplitr
        · ipureintro; exact kept_after_I m c t h0 s1 s2
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h1 : t.val % 4 = 1
  · rw [Dat.leavesExact_idle (dats m 0 c) 6 t (idle6 t (by omega)) (noFlush6 t (by omega)),
      Dat.leavesExact_idle (dats m 0 c) 7 t (idle7 t (by omega)) (noFlush7 t (by omega))]
    iintro ⟨⟨⟨%s0, %s1, %s2, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runForgetGate c (grid0.coords t) (ms0 t) (hs0 t) (ms1 t) (hs1 t) (ms2 t) (hs2 t) (ms3 t) (hs3 t) (ms4 t) (hs4 t) (ms5 t) (hs5 t) (ms6 t) (hs6 t) (ms7 t) (hs7 t) keepI (Memref.isWhole_whole _) keepF (Memref.isWhole_whole _) keepG (Memref.isWhole_whole _)
      (fun h => absurd ((isGate0_iff t).mp h) (by omega)) ((isGate1_iff t).mpr h1) (fun h => absurd ((isGate2_iff t).mp h) (by omega)) (fun h => absurd ((isOutGate_iff t).mp h) (by omega))
      (iblk m c 0 t) (iblk m c 1 t) (iblk m c 2 t) (iblk m c 3 t) (iblk m c 4 t) (iblk m c 5 t) ((dats m 0 c).before 6 t d6) ((dats m 0 c).before 7 t d7) s0 s2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexists _; iexact HS1
    isplitl [HS2]; · iexact HS2
    iintro ⟨H0, H1, H2, H3, H4, H5, H6, H7, HS0, HS1, HS2⟩
    isplitl [HS0 HS1 HS2 Hg]
    · isplitl [HS0 HS1 HS2]
      · iexists _, _, _
        isplitr
        · ipureintro; exact kept_after_F m c t h1 s0 s1 s2 hK
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h2 : t.val % 4 = 2
  · rw [Dat.leavesExact_idle (dats m 0 c) 6 t (idle6 t (by omega)) (noFlush6 t (by omega)),
      Dat.leavesExact_idle (dats m 0 c) 7 t (idle7 t (by omega)) (noFlush7 t (by omega))]
    iintro ⟨⟨⟨%s0, %s1, %s2, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runCellGate c (grid0.coords t) (ms0 t) (hs0 t) (ms1 t) (hs1 t) (ms2 t) (hs2 t) (ms3 t) (hs3 t) (ms4 t) (hs4 t) (ms5 t) (hs5 t) (ms6 t) (hs6 t) (ms7 t) (hs7 t) keepI (Memref.isWhole_whole _) keepF (Memref.isWhole_whole _) keepG (Memref.isWhole_whole _)
      (fun h => absurd ((isGate0_iff t).mp h) (by omega)) (fun h => absurd ((isGate1_iff t).mp h) (by omega)) ((isGate2_iff t).mpr h2) (fun h => absurd ((isOutGate_iff t).mp h) (by omega))
      (iblk m c 0 t) (iblk m c 1 t) (iblk m c 2 t) (iblk m c 3 t) (iblk m c 4 t) (iblk m c 5 t) ((dats m 0 c).before 6 t d6) ((dats m 0 c).before 7 t d7) s0 s1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexists _; iexact HS2
    iintro ⟨H0, H1, H2, H3, H4, H5, H6, H7, HS0, HS1, HS2⟩
    isplitl [HS0 HS1 HS2 Hg]
    · isplitl [HS0 HS1 HS2]
      · iexists _, _, _
        isplitr
        · ipureintro; exact kept_after_G m c t h2 s0 s1 s2 hK
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  have h3 : t.val % 4 = 3 := by omega
  rw [leaves6 m c t h3, leaves7 m c t h3]
  unfold outH outC
  iintro ⟨⟨⟨%s0, %s1, %s2, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨e0, e1, e2⟩ := hK
  obtain rfl := e0 (by omega); obtain rfl := e1 (by omega); obtain rfl := e2 (by omega)
  iapply (runOutputGate c (grid0.coords t) (ms0 t) (hs0 t) (ms1 t) (hs1 t) (ms2 t) (hs2 t) (ms3 t) (hs3 t) (ms4 t) (hs4 t) (ms5 t) (hs5 t) (ms6 t) (hs6 t) (ms7 t) (hs7 t) keepI (Memref.isWhole_whole _) keepF (Memref.isWhole_whole _) keepG (Memref.isWhole_whole _)
    (fun h => absurd ((isGate0_iff t).mp h) (by omega)) (fun h => absurd ((isGate1_iff t).mp h) (by omega)) (fun h => absurd ((isGate2_iff t).mp h) (by omega)) ((isOutGate_iff t).mpr h3)
    (iblk m c 0 t) (iblk m c 1 t) (iblk m c 2 t) (iblk m c 3 t) (iblk m c 4 t) (iblk m c 5 t) (gateI m c (t.val / 4)) (gateF m c (t.val / 4)) (gateG m c (t.val / 4)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · iexists (gateI m c (t.val / 4)), (gateF m c (t.val / 4)), (gateG m c (t.val / 4))
      isplitr
      · ipureintro; exact kept_after_O m c t h3 _ _ _
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the kept buffers. -/
theorem hin (c : Dev nD) : Pipeline.ΦA spec0 c ⊢ (dats m 0 c).Φ 0 := by
  rw [show (dats m 0 c).Φ 0 = Inv m c 0 from rfl, classInv_eq]; unfold Inv
  iintro ⟨⟨⟨%s0, HS0⟩, ⟨%s1, HS1⟩, ⟨%s2, HS2⟩⟩, Hg⟩
  isplitl [HS0 HS1 HS2]
  · iexists s0, s1, s2
    isplitr
    · ipureintro; exact ⟨fun h => absurd h (by decide), fun h => absurd h (by decide), fun h => absurd h (by decide)⟩
    isplitl [HS0]; · iexact HS0
    isplitl [HS1]; · iexact HS1
    iexact HS2
  iexact Hg

/-- After the last point the invariant gives the kept buffers back at some contents. -/
theorem hout (c : Dev nD) : (dats m 0 c).Φ (Fin.last cfg0.N) ⊢ Pipeline.ΦA spec0 c := by
  rw [show (dats m 0 c).Φ (Fin.last cfg0.N) = Inv m c (Fin.last cfg0.N).val from rfl, classInv_eq]; unfold Inv
  iintro ⟨⟨%s0, %s1, %s2, -, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has every array of the pipeline at what the
    library computes from the proof data — an input as the region found it, a result array with each tile's block
    overwritten by what the output gate's point left — and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.LibMatmulNT.lean ====
/-
  A matrix product with both operands contracted along their second axis, read at an entry: for an `[n, K]` matrix
  and an `[m, K]` matrix (dimension numbers: contracting axes [1] and [1], non-contracting axes [0] and [0], no batch
  axes) accumulated into zero, entry `(p, c)` of the `[n, m]` result is the sum over `k` of
  `lhs (p, k) * rhs (c, k)`, at the exact values. The dimension numbers enter only through four facts about where the
  operand indices come from: each operand's row from the result's row, resp. column, and each operand's column from
  the contraction position.
-/
import Idealize.ShloMosaic.Lib.ValueIdx
import Idealize.ShloMosaic.PureOps.Ideal.Laws

noncomputable section

namespace Cert.PlainDotNT

open Idealize.ShloMosaic Idealize.ShloMosaic.ValueIdx

/-- Rows against rows: for an `[n, K]` matrix and an `[m, K]` matrix, both contracted along their second axis,
    accumulated into zero, entry `(p, c)` is `∑ k, lhs (p, k) * rhs (c, k)`. The dimension numbers enter only through
    four facts about where the operand indices come from. -/
theorem matmul_rows_rows_zero_apply {n K m : ℕ} {φ₁ φ₂ : FTy}
    (D : DotDims ⟨2, ![n, K]⟩ ⟨2, ![m, K]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![n, K]⟩ φ₁) (rhs : FVec Ideal ⟨2, ![m, K]⟩ φ₂) (p : Fin n) (c : Fin m) :
    matmul D prec lhs rhs (constant ⟨2, ![n, m]⟩ .f32 0x00000000#32) (ix2 p c)
      = ∑ k : Fin K, lhs (ix2 p k) * rhs (ix2 c k) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.PlainDotNT

end
-- ==== Proof.LibVecRow.lean ====
/-
  A vector of `b` entries stored as a `1 × b` row (a reshape that adds a leading unit axis) read at an entry:
  entry `(u, q)` of the row is entry `q` of the vector.
-/
import Idealize.ShloMosaic.Lib.Pipeline.Value
import Idealize.ShloMosaic.Lib.ValueIdx

noncomputable section

namespace Cert.VecRow

open Idealize.ShloMosaic Idealize.ShloMosaic.ValueIdx

/-- A `[b]` vector reshaped to a `[1, b]` row reads, at `(u, q)`, the vector at `q`: both have row-major position `q`. -/
theorem row_of_vec_apply {α : Type} {b : ℕ} (h : (⟨1, ![b]⟩ : Shape).ShapeCasts ⟨2, ![1, b]⟩) (x : (⟨1, ![b]⟩ : Shape).Idx → α)
    (u : Fin 1) (q : Fin b) : shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have := u.isLt
  have hu : u.val = 0 := by omega
  rw [hu]; omega

end Cert.VecRow

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.KIPay.lean ====
/-
  What the LSTM cell kernel's body computes, read at one entry, on the extended reals.  The body multiplies the
  `[256, 1024]` blocks of x and h against the ROWS of the `[1024, 1024]` weight blocks (both operands contracted along
  their second axis), adds the two products and the bias block spread over the rows, and applies the logistic function or
  the hyperbolic tangent; every other operation is entry by entry.
-/
import proofs.«180770_j49460843380786_1_alg».proof.Proof.Gen.KernelIdeal.Skeleton
import proofs.«180770_j49460843380786_1_alg».proof.Proof.LibMatmulNT
import proofs.«180770_j49460843380786_1_alg».proof.Proof.LibVecRow
import proofs.«180770_j49460843380786_1_alg».proof.Proof.LibRowBroadcast
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Where the matrix product's operand indices come from -/

theorem lhs0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q

/-- One product of the body at entry `(p, q)`: row `p` of the left block against row `q` of the weight block. -/
theorem product_apply (a : FVec Ideal S256x1024 .bf16) (w : FVec Ideal S1024x1024 .bf16) (p : Fin 256) (q : Fin 1024) :
    matmul dot_S256x1024_S1024x1024_S256x1024_1_1_0_0_n_n none a w (constant S256x1024 .f32 0x00000000#32) (ix2 p q) = ∑ k : Fin 1024, a (ix2 p k) * w (ix2 q k) :=
  Cert.PlainDotNT.matmul_rows_rows_zero_apply dot_S256x1024_S1024x1024_S256x1024_1_1_0_0_n_n none rfl rfl lhs0 lhs1 rhs0 rhs1 a w p q

/-! ## The payloads at an entry -/

/-- The gate pre-activation of the tile at entry `(p, q)`: the two inner products and the bias entry `q`. -/
theorem pre_apply (v0 v2 : FVec Ideal S256x1024 .f32) (v4 v6 : FVec Ideal S1024x1024 .bf16) (v11 : FVec Ideal S1024 .f32)
    (p : Fin 256) (q : Fin 1024) :
    k0_pay1 (F := Ideal) v0 v2 v4 v6 v11 (ix2 p q)
      = ((∑ k : Fin 1024, v0 (ix2 p k) * v4 (ix2 q k)) + (∑ k : Fin 1024, v2 (ix2 p k) * v6 (ix2 q k))) + v11 (ix1 q) := by
  unfold k0_pay1
  refine congrArg₂ (· + ·) (congrArg₂ (· + ·) ?_ ?_) ?_
  · refine (product_apply _ _ p q).trans ?_
    rw [shapeCast_self]; rfl
  · refine (product_apply _ _ p q).trans ?_
    rw [shapeCast_self]; rfl
  · refine (Cert.RowBroadcast.broadcastTo_1b_ab_apply _ _ p q).trans ?_
    refine (Cert.VecRow.row_of_vec_apply _ _ (0 : Fin 1) q).trans ?_
    rw [shapeCast_self]

theorem inputGate_apply (v0 v2 : FVec Ideal S256x1024 .f32) (v4 v6 : FVec Ideal S1024x1024 .bf16) (v11 : FVec Ideal S1024 .f32)
    (j : S256x1024.Idx) : k0_pay2 (F := Ideal) v0 v2 v4 v6 v11 j = Ideal.logistic (k0_pay1 (F := Ideal) v0 v2 v4 v6 v11 j) := by
  unfold k0_pay2; rw [shapeCast_self]; rfl

theorem forgetGate_apply (v0 v2 : FVec Ideal S256x1024 .f32) (v4 v6 : FVec Ideal S1024x1024 .bf16) (v11 : FVec Ideal S1024 .f32)
    (j : S256x1024.Idx) : k0_pay3 (F := Ideal) v0 v2 v4 v6 v11 j = Ideal.logistic (k0_pay1 (F := Ideal) v0 v2 v4 v6 v11 j) := by
  unfold k0_pay3; rw [shapeCast_self]; rfl

theorem cellGate_apply (v0 v2 : FVec Ideal S256x1024 .f32) (v4 v6 : FVec Ideal S1024x1024 .bf16) (v11 : FVec Ideal S1024 .f32)
    (j : S256x1024.Idx) : k0_pay4 (F := Ideal) v0 v2 v4 v6 v11 j = Ideal.tanh (k0_pay1 (F := Ideal) v0 v2 v4 v6 v11 j) := by
  unfold k0_pay4; rw [shapeCast_self]; rfl

/-- The new cell state at an entry: forget · c + input · cell. -/
theorem cell_apply (f cc i g : FVec Ideal S256x1024 .f32) (j : S256x1024.Idx) :
    k0_pay5 (F := Ideal) f cc i g j = f j * cc j + i j * g j := rfl

/-- The new hidden state at an entry: σ(output pre-activation) · tanh(new cell state). -/
theorem hidden_apply (v0 v2 : FVec Ideal S256x1024 .f32) (v4 v6 : FVec Ideal S1024x1024 .bf16) (v11 : FVec Ideal S1024 .f32)
    (f cc i g : FVec Ideal S256x1024 .f32) (j : S256x1024.Idx) :
    k0_pay6 (F := Ideal) v0 v2 v4 v6 v11 f cc i g j
      = Ideal.logistic (k0_pay1 (F := Ideal) v0 v2 v4 v6 v11 j) * Ideal.tanh (k0_pay5 (F := Ideal) f cc i g j) := rfl

end Cert.KernelIdeal.Pay

end
-- ==== Proof.Spec.lean ====
/-
  One step of an LSTM cell on the extended reals.  For batch row `r` and hidden unit `q` the four gate
  pre-activations are  x[r,·]·W_ih[1024 g + q,·] + h[r,·]·W_hh[1024 g + q,·] + (b_ih + b_hh)[1024 g + q]  for the gate
  groups g = 0 (input), 1 (forget), 2 (cell), 3 (output); the new cell state is
  σ(forget)·c + σ(input)·tanh(cell) and the new hidden state σ(output)·tanh(new cell state), σ the logistic function.
-/
import Idealize.ShloMosaic.PureOps.Ideal
import Idealize.ShloMosaic.Lib.ValueIdx

noncomputable section

namespace Cert.Lstm

open Idealize.ShloMosaic Idealize.ShloMosaic.ValueIdx

/-- A `[4096, 1024]` matrix of extended reals. -/
abbrev Mat : Type := FVec Ideal ⟨2, ![4096, 1024]⟩ .f32
/-- A `[4096]` vector of extended reals. -/
abbrev Vec4 : Type := FVec Ideal ⟨1, ![4096]⟩ .f32

/-- Row `1024 g + q` of the stacked weights and biases: hidden unit `q` of gate group `g`. -/
def wrow (g : Fin 4) (q : Fin 1024) : Fin 4096 := ⟨1024 * g.val + q.val, by omega⟩

theorem wrow_val (g : Fin 4) (q : Fin 1024) : (wrow g q).val = 1024 * g.val + q.val := rfl

/-- The pre-activation of gate group `g` at batch row `r` and hidden unit `q`: the two inner products, then the two
    biases' sum. -/
def gate (x h wih whh : Mat) (bih bhh : Vec4) (g : Fin 4) (r : Fin 4096) (q : Fin 1024) : EReal :=
  ((∑ k : Fin 1024, x (ix2 r k) * wih (ix2 (wrow g q) k)) + (∑ k : Fin 1024, h (ix2 r k) * whh (ix2 (wrow g q) k)))
    + (bih (ix1 (wrow g q)) + bhh (ix1 (wrow g q)))

/-- The new cell state: σ(forget) · c + σ(input) · tanh(cell). -/
def cellNew (x h c wih whh : Mat) (bih bhh : Vec4) (r : Fin 4096) (q : Fin 1024) : EReal :=
  Ideal.logistic (gate x h wih whh bih bhh 1 r q) * c (ix2 r q)
    + Ideal.logistic (gate x h wih whh bih bhh 0 r q) * Ideal.tanh (gate x h wih whh bih bhh 2 r q)

/-- The new hidden state: σ(output) · tanh(new cell state). -/
def hiddenNew (x h c wih whh : Mat) (bih bhh : Vec4) (r : Fin 4096) (q : Fin 1024) : EReal :=
  Ideal.logistic (gate x h wih whh bih bhh 3 r q) * Ideal.tanh (cellNew x h c wih whh bih bhh r q)

/-- The new cell states as one array. -/
def cellOut (x h c wih whh : Mat) (bih bhh : Vec4) : Mat := fun i => cellNew x h c wih whh bih bhh (i 0) (i 1)

/-- The new hidden states as one array. -/
def hiddenOut (x h c wih whh : Mat) (bih bhh : Vec4) : Mat := fun i => hiddenNew x h c wih whh bih bhh (i 0) (i 1)

theorem cellOut_apply (x h c wih whh : Mat) (bih bhh : Vec4) (r : Fin 4096) (q : Fin 1024) :
    cellOut x h c wih whh bih bhh (ix2 r q) = cellNew x h c wih whh bih bhh r q := rfl

theorem hiddenOut_apply (x h c wih whh : Mat) (bih bhh : Vec4) (r : Fin 4096) (q : Fin 1024) :
    hiddenOut x h c wih whh bih bhh (ix2 r q) = hiddenNew x h c wih whh bih bhh r q := rfl

end Cert.Lstm

end
-- ==== Proof.KIValue.lean ====
/-
  The two result arrays of the LSTM cell kernel after the run, as the specification's arrays of the argument arrays.
  The batch tile `b` owns rows `256 b … 256 b + 255` of x, h, c and of both results; the gate group `g` owns rows
  `1024 g … 1024 g + 1023` of the two weight arrays and of the bias.  So an entry of a block is an entry of its array at
  block index × block size + the coordinate inside the block; the body's inner products over a block's rows are the
  specification's over the arrays' rows; and each result array, written back tile by tile at the output gate's points,
  is covered by those tiles.
-/
import proofs.«180770_j49460843380786_1_alg».proof.Proof.KIFrame
import proofs.«180770_j49460843380786_1_alg».proof.Proof.KIPay
import proofs.«180770_j49460843380786_1_alg».proof.Proof.Spec
import Idealize.ShloMosaic.Lib.StableHlo.Run

set_option maxRecDepth 16384

noncomputable section

namespace Cert.KernelIdeal.Body

open Cert.KernelIdeal Cert.KernelIdeal.Gen Cert.Lstm
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The argument arrays, and the arrays the region finds -/

abbrev aX (c : Dev nD) : Mat := m ((c : Thread nD τ).loc main_arg0)
abbrev aH (c : Dev nD) : Mat := m ((c : Thread nD τ).loc main_arg1)
abbrev aC (c : Dev nD) : Mat := m ((c : Thread nD τ).loc main_arg2)
abbrev aWih (c : Dev nD) : Mat := m ((c : Thread nD τ).loc main_arg3)
abbrev aWhh (c : Dev nD) : Mat := m ((c : Thread nD τ).loc main_arg4)
abbrev aBih (c : Dev nD) : Vec4 := m ((c : Thread nD τ).loc main_arg5)
abbrev aBhh (c : Dev nD) : Vec4 := m ((c : Thread nD τ).loc main_arg6)

/-- The input-to-hidden weights reach the kernel through a change of float format: the identity on extended reals. -/
theorem found_wih (c : Dev nD) (i : S4096x1024.Idx) : (V m c main_v0 : S4096x1024.Idx → EReal) i = aWih m c i := by
  have e : (V m c main_v0 : S4096x1024.Idx → EReal) = truncf .bf16 (aWih m c) Facts₀.bitsLt_bf16_f32 := by
    dsimp only [V, hostOps0]; after_results
  rw [e]; rfl

/-- The same for the hidden-to-hidden weights. -/
theorem found_whh (c : Dev nD) (i : S4096x1024.Idx) : (V m c main_v1 : S4096x1024.Idx → EReal) i = aWhh m c i := by
  have e : (V m c main_v1 : S4096x1024.Idx → EReal) = truncf .bf16 (aWhh m c) Facts₀.bitsLt_bf16_f32 := by
    dsimp only [V, hostOps0]; after_results
  rw [e]; rfl

/-- The bias the kernel gets is the sum of the two biases. -/
theorem found_bias (c : Dev nD) (i : S4096.Idx) : (V m c main_v2 : S4096.Idx → EReal) i = aBih m c i + aBhh m c i := by
  have e : (V m c main_v2 : S4096.Idx → EReal) = addf (aBih m c) (aBhh m c) := by
    dsimp only [V, hostOps0]; after_results
  rw [e]; rfl

/-! ## Which block a point works on -/

/-- The block indices of the eight windows at every point: batch tile `t / 4` for x, h, c and the results, gate group
    `t % 4` for the weights and the bias; decided over the 64 points. -/
theorem idx_facts : ∀ t : Fin cfg0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = 0
    ∧ win0_5.index t (0 : Fin 1) = t.val % 4
    ∧ win0_6.index t (0 : Fin 2) = t.val / 4 ∧ win0_6.index t (1 : Fin 2) = 0
    ∧ win0_7.index t (0 : Fin 2) = t.val / 4 ∧ win0_7.index t (1 : Fin 2) = 0 :=
  (by decide +kernel : ∀ t : Fin grid0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = 0
    ∧ win0_5.index t (0 : Fin 1) = t.val % 4
    ∧ win0_6.index t (0 : Fin 2) = t.val / 4 ∧ win0_6.index t (1 : Fin 2) = 0
    ∧ win0_7.index t (0 : Fin 2) = t.val / 4 ∧ win0_7.index t (1 : Fin 2) = 0)

/-- Row `p` of point `t`'s batch tile, as a row of the whole arrays. -/
def rowOf (t : Fin cfg0.N) (p : Fin 256) : Fin 4096 := ⟨256 * (t.val / 4) + p.val, by have := lt64 t; omega⟩
/-- The gate group of point `t`. -/
def gOf (t : Fin cfg0.N) : Fin 4 := ⟨t.val % 4, Nat.mod_lt _ (by decide)⟩

theorem rowOf_pt (t : Fin cfg0.N) (g : ℕ) (hg : g < 4) (p : Fin 256) : rowOf (pt (t.val / 4) g) p = rowOf t p :=
  Fin.ext (by
    show 256 * ((pt (t.val / 4) g).val / 4) + p.val = 256 * (t.val / 4) + p.val
    rw [pt_val]; have := lt64 t; omega)

theorem gOf_pt0 (t : Fin cfg0.N) : gOf (pt (t.val / 4) 0) = 0 :=
  Fin.ext (by
    show (pt (t.val / 4) 0).val % 4 = 0
    rw [pt_val]; have := lt64 t; omega)

theorem gOf_pt1 (t : Fin cfg0.N) : gOf (pt (t.val / 4) 1) = 1 :=
  Fin.ext (by
    show (pt (t.val / 4) 1).val % 4 = 1
    rw [pt_val]; have := lt64 t; omega)

theorem gOf_pt2 (t : Fin cfg0.N) : gOf (pt (t.val / 4) 2) = 2 :=
  Fin.ext (by
    show (pt (t.val / 4) 2).val % 4 = 2
    rw [pt_val]; have := lt64 t; omega)

theorem gOf_out (t : Fin cfg0.N) (h3 : t.val % 4 = 3) : gOf t = 3 := Fin.ext h3

/-! ## An entry of a block is an entry of its array -/

/-- An entry of the block of x. -/
theorem xblk (c : Dev nD) (t : Fin cfg0.N) (p : Fin 256) (k : Fin 1024) :
    iblk m c 0 t (ix2 p k) = aX m c (ix2 (rowOf t p) k) := by
  obtain ⟨e00, e01, e10, e11, e20, e21, e30, e31, e40, e41, e50, e60, e61, e70, e71⟩ := idx_facts t
  have hN := lt64 t
  unfold iblk
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = 256 * (t.val / 4) + p.val; omega
  | ⟨1, _⟩ => show win0_0.index t (1 : Fin 2) * 1024 + 1 * k.val = k.val; omega

/-- An entry of the block of h. -/
theorem hblk (c : Dev nD) (t : Fin cfg0.N) (p : Fin 256) (k : Fin 1024) :
    iblk m c 1 t (ix2 p k) = aH m c (ix2 (rowOf t p) k) := by
  obtain ⟨e00, e01, e10, e11, e20, e21, e30, e31, e40, e41, e50, e60, e61, e70, e71⟩ := idx_facts t
  have hN := lt64 t
  unfold iblk
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = 256 * (t.val / 4) + p.val; omega
  | ⟨1, _⟩ => show win0_1.index t (1 : Fin 2) * 1024 + 1 * k.val = k.val; omega

/-- An entry of the block of c. -/
theorem cblk (c : Dev nD) (t : Fin cfg0.N) (p : Fin 256) (k : Fin 1024) :
    iblk m c 2 t (ix2 p k) = aC m c (ix2 (rowOf t p) k) := by
  obtain ⟨e00, e01, e10, e11, e20, e21, e30, e31, e40, e41, e50, e60, e61, e70, e71⟩ := idx_facts t
  have hN := lt64 t
  unfold iblk
  show V m c main_arg2 (((cfg0.win 2).blk t).view.emb (ix2 p k)) = _
  rw [V_main_arg2]
  refine congrArg _ (funext fun a => Fin.ext ?_)
  match a with
  | ⟨0, _⟩ => show win0_2.index t (0 : Fin 2) * 256 + 1 * p.val = 256 * (t.val / 4) + p.val; omega
  | ⟨1, _⟩ => show win0_2.index t (1 : Fin 2) * 1024 + 1 * k.val = k.val; omega

/-- An entry of the block of the input-to-hidden weights: row \`q\` of the point's gate group. -/
theorem wihblk (c : Dev nD) (t : Fin cfg0.N) (q k : Fin 1024) :
    iblk m c 3 t (ix2 q k) = aWih m c (ix2 (wrow (gOf t) q) k) := by
  obtain ⟨e00, e01, e10, e11, e20, e21, e30, e31, e40, e41, e50, e60, e61, e70, e71⟩ := idx_facts t
  have hN := lt64 t
  unfold iblk
  show V m c main_v0 (((cfg0.win 3).blk t).view.emb (ix2 q k)) = _
  refine (found_wih m c _).trans ?_
  refine congrArg _ (funext fun a => Fin.ext ?_)
  match a with
  | ⟨0, _⟩ => show win0_3.index t (0 : Fin 2) * 1024 + 1 * q.val = 1024 * (t.val % 4) + q.val; omega
  | ⟨1, _⟩ => show win0_3.index t (1 : Fin 2) * 1024 + 1 * k.val = k.val; omega

/-- An entry of the block of the hidden-to-hidden weights. -/
theorem whhblk (c : Dev nD) (t : Fin cfg0.N) (q k : Fin 1024) :
    iblk m c 4 t (ix2 q k) = aWhh m c (ix2 (wrow (gOf t) q) k) := by
  obtain ⟨e00, e01, e10, e11, e20, e21, e30, e31, e40, e41, e50, e60, e61, e70, e71⟩ := idx_facts t
  have hN := lt64 t
  unfold iblk
  show V m c main_v1 (((cfg0.win 4).blk t).view.emb (ix2 q k)) = _
  refine (found_whh m c _).trans ?_
  refine congrArg _ (funext fun a => Fin.ext ?_)
  match a with
  | ⟨0, _⟩ => show win0_4.index t (0 : Fin 2) * 1024 + 1 * q.val = 1024 * (t.val % 4) + q.val; omega
  | ⟨1, _⟩ => show win0_4.index t (1 : Fin 2) * 1024 + 1 * k.val = k.val; omega

/-- An entry of the bias block: the two biases' sum at the gate group's entry. -/
theorem bblk (c : Dev nD) (t : Fin cfg0.N) (q : Fin 1024) :
    iblk m c 5 t (ix1 q) = aBih m c (ix1 (wrow (gOf t) q)) + aBhh m c (ix1 (wrow (gOf t) q)) := by
  obtain ⟨e00, e01, e10, e11, e20, e21, e30, e31, e40, e41, e50, e60, e61, e70, e71⟩ := idx_facts t
  have hN := lt64 t
  unfold iblk
  show V m c main_v2 (((cfg0.win 5).blk t).view.emb (ix1 q)) = _
  refine (found_bias m c _).trans ?_
  have e : ((cfg0.win 5).blk t).view.emb (ix1 q) = ix1 (wrow (gOf t) q) := funext fun a => Fin.ext (by
    match a with
    | ⟨0, _⟩ => show win0_5.index t (0 : Fin 1) * 1024 + 1 * q.val = 1024 * (t.val % 4) + q.val; omega)
  rw [e]

/-! ## The gates and the results at an entry -/

/-- The pre-activation a point computes, at entry `(p, q)` of its tile: the specification's, for the point's gate group
    and the tile's row. -/
theorem pre_at (c : Dev nD) (t : Fin cfg0.N) (p : Fin 256) (q : Fin 1024) :
    k0_pay1 (F := Ideal) (iblk m c 0 t) (iblk m c 1 t) (iblk m c 3 t) (iblk m c 4 t) (iblk m c 5 t) (ix2 p q) = gate (aX m c) (aH m c) (aWih m c) (aWhh m c) (aBih m c) (aBhh m c) (gOf t) (rowOf t p) q := by
  refine (Pay.pre_apply (iblk m c 0 t) (iblk m c 1 t) (iblk m c 3 t) (iblk m c 4 t) (iblk m c 5 t) p q).trans ?_
  unfold gate
  refine congrArg₂ (· + ·) (congrArg₂ (· + ·) (Finset.sum_congr rfl fun k _ => ?_) (Finset.sum_congr rfl fun k _ => ?_)) ?_
  · rw [xblk, wihblk]
  · rw [hblk, whhblk]
  · exact bblk m c t q

theorem gateI_apply (c : Dev nD) (t : Fin cfg0.N) (p : Fin 256) (q : Fin 1024) :
    gateI m c (t.val / 4) (ix2 p q) = Ideal.logistic (gate (aX m c) (aH m c) (aWih m c) (aWhh m c) (aBih m c) (aBhh m c) 0 (rowOf t p) q) := by
  unfold gateI
  refine (Pay.inputGate_apply (iblk m c 0 (pt (t.val / 4) 0)) (iblk m c 1 (pt (t.val / 4) 0)) (iblk m c 3 (pt (t.val / 4) 0)) (iblk m c 4 (pt (t.val / 4) 0)) (iblk m c 5 (pt (t.val / 4) 0)) (ix2 p q)).trans ?_
  rw [pre_at, rowOf_pt t 0 (by decide) p, gOf_pt0 t]

theorem gateF_apply (c : Dev nD) (t : Fin cfg0.N) (p : Fin 256) (q : Fin 1024) :
    gateF m c (t.val / 4) (ix2 p q) = Ideal.logistic (gate (aX m c) (aH m c) (aWih m c) (aWhh m c) (aBih m c) (aBhh m c) 1 (rowOf t p) q) := by
  unfold gateF
  refine (Pay.forgetGate_apply (iblk m c 0 (pt (t.val / 4) 1)) (iblk m c 1 (pt (t.val / 4) 1)) (iblk m c 3 (pt (t.val / 4) 1)) (iblk m c 4 (pt (t.val / 4) 1)) (iblk m c 5 (pt (t.val / 4) 1)) (ix2 p q)).trans ?_
  rw [pre_at, rowOf_pt t 1 (by decide) p, gOf_pt1 t]

theorem gateG_apply (c : Dev nD) (t : Fin cfg0.N) (p : Fin 256) (q : Fin 1024) :
    gateG m c (t.val / 4) (ix2 p q) = Ideal.tanh (gate (aX m c) (aH m c) (aWih m c) (aWhh m c) (aBih m c) (aBhh m c) 2 (rowOf t p) q) := by
  unfold gateG
  refine (Pay.cellGate_apply (iblk m c 0 (pt (t.val / 4) 2)) (iblk m c 1 (pt (t.val / 4) 2)) (iblk m c 3 (pt (t.val / 4) 2)) (iblk m c 4 (pt (t.val / 4) 2)) (iblk m c 5 (pt (t.val / 4) 2)) (ix2 p q)).trans ?_
  rw [pre_at, rowOf_pt t 2 (by decide) p, gOf_pt2 t]

/-- The new cell state an output gate's point leaves, at an entry of its tile. -/
theorem outC_apply (c : Dev nD) (t : Fin cfg0.N) (h3 : t.val % 4 = 3) (p : Fin 256) (q : Fin 1024) :
    outC m c t (ix2 p q) = cellNew (aX m c) (aH m c) (aC m c) (aWih m c) (aWhh m c) (aBih m c) (aBhh m c) (rowOf t p) q := by
  unfold outC cellNew
  refine (Pay.cell_apply (gateF m c (t.val / 4)) (iblk m c 2 t) (gateI m c (t.val / 4)) (gateG m c (t.val / 4)) (ix2 p q)).trans ?_
  rw [gateF_apply, gateI_apply, gateG_apply, cblk]

/-- The new hidden state it leaves. -/
theorem outH_apply (c : Dev nD) (t : Fin cfg0.N) (h3 : t.val % 4 = 3) (p : Fin 256) (q : Fin 1024) :
    outH m c t (ix2 p q) = hiddenNew (aX m c) (aH m c) (aC m c) (aWih m c) (aWhh m c) (aBih m c) (aBhh m c) (rowOf t p) q := by
  unfold outH hiddenNew
  refine (Pay.hidden_apply (iblk m c 0 t) (iblk m c 1 t) (iblk m c 3 t) (iblk m c 4 t) (iblk m c 5 t) (gateF m c (t.val / 4)) (iblk m c 2 t) (gateI m c (t.val / 4)) (gateG m c (t.val / 4)) (ix2 p q)).trans ?_
  have ec := outC_apply m c t h3 p q
  unfold outC at ec
  rw [ec, pre_at, gOf_out t h3]

/-! ## From blocks to the arrays -/

/-- What an output gate's point writes back to the hidden-state array is its block of the specification's array. -/
theorem flushed6_eq (c : Dev nD) (t : Fin cfg0.N) (h3 : t.val % 4 = 3) :
    (dats m 0 c).flushed 6 t = ((cfg0.win 6).blk t).view.read (Elt Ideal) (hiddenOut (aX m c) (aH m c) (aC m c) (aWih m c) (aWhh m c) (aBih m c) (aBhh m c)) := by
  show (cfg0.win 6).cut (grid0.coords t) ((dats m 0 c).after 6 t) = _
  rw [after6]
  obtain ⟨e00, e01, e10, e11, e20, e21, e30, e31, e40, e41, e50, e60, e61, e70, e71⟩ := idx_facts t
  have hN := lt64 t
  funext j
  obtain ⟨p, q, rfl⟩ : ∃ (p : Fin 256) (q : Fin 1024), j = ix2 p q := ⟨j 0, j 1, eq_ix2 j⟩
  show outH m c t (ix2 p q) = hiddenOut (aX m c) (aH m c) (aC m c) (aWih m c) (aWhh m c) (aBih m c) (aBhh m c) (((cfg0.win 6).blk t).view.emb (ix2 p q))
  have e : ((cfg0.win 6).blk t).view.emb (ix2 p q) = ix2 (rowOf t p) q := funext fun a => Fin.ext (by
    match a with
    | ⟨0, _⟩ => show win0_6.index t (0 : Fin 2) * 256 + 1 * p.val = 256 * (t.val / 4) + p.val; omega
    | ⟨1, _⟩ => show win0_6.index t (1 : Fin 2) * 1024 + 1 * q.val = q.val; omega)
  rw [e, hiddenOut_apply]
  exact outH_apply m c t h3 p q

/-- An index of the hidden-state array is in a point's block iff each coordinate is in the block's range. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v3_0).slice (win0_6.rect t)).set ↔ _
  rw [View.set_slice_whole, Rect.mem_set_unit]
  exact Iff.rfl

/-- Every index of the hidden-state array is in the block of the output gate's point of its batch tile. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have ht : (pt ((i 0).val / 256) 3).val = 4 * ((i 0).val / 256) + 3 := by rw [pt_val]; omega
  generalize pt ((i 0).val / 256) 3 = t at ht
  obtain ⟨e00, e01, e10, e11, e20, e21, e30, e31, e40, e41, e50, e60, e61, e70, e71⟩ := idx_facts t
  refine ⟨t, (flush0_6 t).mpr (by omega), ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The hidden-state array after the run is the specification's. -/
theorem final6 (c : Dev nD) : (dats m 0 c).arrAt 6 cfg0.N = hiddenOut (aX m c) (aH m c) (aC m c) (aWih m c) (aWhh m c) (aBih m c) (aBhh m c) :=
  (dats m 0 c).arrAt_eq_of_cover 6 (hiddenOut (aX m c) (aH m c) (aC m c) (aWih m c) (aWhh m c) (aBih m c) (aBhh m c)) (fun t hf => flushed6_eq m c t ((flush0_6 t).mp hf)) cover6

/-- What an output gate's point writes back to the cell-state array is its block of the specification's array. -/
theorem flushed7_eq (c : Dev nD) (t : Fin cfg0.N) (h3 : t.val % 4 = 3) :
    (dats m 0 c).flushed 7 t = ((cfg0.win 7).blk t).view.read (Elt Ideal) (cellOut (aX m c) (aH m c) (aC m c) (aWih m c) (aWhh m c) (aBih m c) (aBhh m c)) := by
  show (cfg0.win 7).cut (grid0.coords t) ((dats m 0 c).after 7 t) = _
  rw [after7]
  obtain ⟨e00, e01, e10, e11, e20, e21, e30, e31, e40, e41, e50, e60, e61, e70, e71⟩ := idx_facts t
  have hN := lt64 t
  funext j
  obtain ⟨p, q, rfl⟩ : ∃ (p : Fin 256) (q : Fin 1024), j = ix2 p q := ⟨j 0, j 1, eq_ix2 j⟩
  show outC m c t (ix2 p q) = cellOut (aX m c) (aH m c) (aC m c) (aWih m c) (aWhh m c) (aBih m c) (aBhh m c) (((cfg0.win 7).blk t).view.emb (ix2 p q))
  have e : ((cfg0.win 7).blk t).view.emb (ix2 p q) = ix2 (rowOf t p) q := funext fun a => Fin.ext (by
    match a with
    | ⟨0, _⟩ => show win0_7.index t (0 : Fin 2) * 256 + 1 * p.val = 256 * (t.val / 4) + p.val; omega
    | ⟨1, _⟩ => show win0_7.index t (1 : Fin 2) * 1024 + 1 * q.val = q.val; omega)
  rw [e, cellOut_apply]
  exact outC_apply m c t h3 p q

/-- An index of the cell-state array is in a point's block iff each coordinate is in the block's range. -/
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v3_1).slice (win0_7.rect t)).set ↔ _
  rw [View.set_slice_whole, Rect.mem_set_unit]
  exact Iff.rfl

/-- Every index of the cell-state array is in the block of the output gate's point of its batch tile. -/
theorem cover7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have ht : (pt ((i 0).val / 256) 3).val = 4 * ((i 0).val / 256) + 3 := by rw [pt_val]; omega
  generalize pt ((i 0).val / 256) 3 = t at ht
  obtain ⟨e00, e01, e10, e11, e20, e21, e30, e31, e40, e41, e50, e60, e61, e70, e71⟩ := idx_facts t
  refine ⟨t, (flush0_7 t).mpr (by omega), ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The cell-state array after the run is the specification's. -/
theorem final7 (c : Dev nD) : (dats m 0 c).arrAt 7 cfg0.N = cellOut (aX m c) (aH m c) (aC m c) (aWih m c) (aWhh m c) (aBih m c) (aBhh m c) :=
  (dats m 0 c).arrAt_eq_of_cover 7 (cellOut (aX m c) (aH m c) (aC m c) (aWih m c) (aWhh m c) (aBih m c) (aBhh m c)) (fun t hf => flushed7_eq m c t ((flush0_7 t).mp hf)) cover7

/-! ## The run, read -/

/-- Every weakly fair execution of the idealized kernel terminates with the two results at the specification's arrays
    of the argument arrays and the arguments unchanged. -/
theorem run : θ_run defs (onTc (τ := τ) (main (F := Ideal))) ⟨m, fun _ => 0, ρ⟩ fun r => ∀ c : Dev nD,
      r.2.mem ((c.tc : Thread nD τ).loc main_v3_0) = hiddenOut (aX m c) (aH m c) (aC m c) (aWih m c) (aWhh m c) (aBih m c) (aBhh m c)
      ∧ r.2.mem ((c.tc : Thread nD τ).loc main_v3_1) = cellOut (aX m c) (aH m c) (aC m c) (aWih m c) (aWhh m c) (aBih m c) (aBhh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Body

end
-- ==== Proof.RefValue.lean ====
/-
  The reference program's two results read at an index.

  The reference forms the [4096, 4096] array of all four gate groups' pre-activations at once,
  ((x · W_ihᵀ + h · W_hhᵀ) + b_ih) + b_hh, and cuts it into four column blocks of width 1024; column 1024 g + q of the
  big array is hidden unit q of gate group g.  Read at one element, each block is the specification's pre-activation up
  to the grouping of a sum of four extended reals, and the rest of the program is pointwise: the logistic function is
  spelled 1 / (1 + exp (-z)) with the float word of 1.0, which denotes the extended real 1.
-/
import proofs.«180770_j49460843380786_1_alg».proof.Proof.Gen.ReferenceIdeal.Read
import proofs.«180770_j49460843380786_1_alg».proof.Proof.Spec
import Idealize.ShloMosaic.Lib.ValueIdx
import Idealize.ShloMosaic.PureOps.Ideal.Laws

noncomputable section

namespace Cert.LstmRef

open Cert.ReferenceIdeal Cert.ReferenceIdeal.Gen Cert.ReferenceIdeal.Read Idealize.ShloMosaic Idealize.ShloMosaic.ValueIdx
open Cert.Lstm

/-- The float word of 1.0 denotes the extended real 1. -/
theorem ofBits_one : Ideal.ofBits .f32 0x3F800000#32 = 1 := IdealRules.sign_bit.ideal_onePat .f32

/-- Element (r, c) of x · Wᵀ is the inner product of row r of x with row c of W. -/
theorem xw_apply (x0 x3 : Mat) (r c : Fin 4096) :
    val_main_v1 (F := Ideal) x0 x3 (ix2 r c) = ∑ k : Fin 1024, x0 (ix2 r k) * x3 (ix2 c k) := by
  rw [val_main_v1_apply]
  refine Finset.sum_congr rfl fun k _ => ?_
  rw [val_main_v0_apply]
  have e1 : lidx_main_v1 (ix2 r c) k = ix2 r k :=
    funext fun a => Fin.ext (by match a with | ⟨0, _⟩ => rfl | ⟨1, _⟩ => rfl)
  have e2 : idx_main_v0 (ridx_main_v1 (ix2 r c) k) = ix2 c k :=
    funext fun a => Fin.ext (by match a with | ⟨0, _⟩ => rfl | ⟨1, _⟩ => rfl)
  rw [e1, e2]

/-- The same for the hidden state's product h · Wᵀ. -/
theorem hw_apply (x1 x4 : Mat) (r c : Fin 4096) :
    val_main_v3 (F := Ideal) x1 x4 (ix2 r c) = ∑ k : Fin 1024, x1 (ix2 r k) * x4 (ix2 c k) := by
  rw [val_main_v3_apply]
  refine Finset.sum_congr rfl fun k _ => ?_
  rw [val_main_v2_apply]
  have e1 : lidx_main_v3 (ix2 r c) k = ix2 r k :=
    funext fun a => Fin.ext (by match a with | ⟨0, _⟩ => rfl | ⟨1, _⟩ => rfl)
  have e2 : idx_main_v2 (ridx_main_v3 (ix2 r c) k) = ix2 c k :=
    funext fun a => Fin.ext (by match a with | ⟨0, _⟩ => rfl | ⟨1, _⟩ => rfl)
  rw [e1, e2]

/-- A bias vector spread over the rows: element (r, c) is entry c. -/
theorem bih_apply (x5 : Vec4) (r c : Fin 4096) : val_main_v6 (F := Ideal) x5 (ix2 r c) = x5 (ix1 c) := by
  rw [val_main_v6_apply, val_main_v5_apply]
  have e : idx_main_v5 (idx_main_v6 (ix2 r c)) = ix1 c :=
    funext fun a => Fin.ext (by match a with | ⟨0, _⟩ => rfl)
  rw [e]

theorem bhh_apply (x6 : Vec4) (r c : Fin 4096) : val_main_v9 (F := Ideal) x6 (ix2 r c) = x6 (ix1 c) := by
  rw [val_main_v9_apply, val_main_v8_apply]
  have e : idx_main_v8 (idx_main_v9 (ix2 r c)) = ix1 c :=
    funext fun a => Fin.ext (by match a with | ⟨0, _⟩ => rfl)
  rw [e]

/-- Column 1024 g + q of the big array is the pre-activation of hidden unit q in gate group g: the reference adds the
    two biases one after the other, the specification adds their sum. -/
theorem pre_apply (x0 x1 x3 x4 : Mat) (x5 x6 : Vec4) (r : Fin 4096) (g : Fin 4) (q : Fin 1024) :
    val_main_v10 (F := Ideal) x0 x1 x3 x4 x5 x6 (ix2 r (wrow g q)) = gate x0 x1 x3 x4 x5 x6 g r q := by
  rw [val_main_v10_apply, val_main_v7_apply, val_main_v4_apply, xw_apply, hw_apply, bih_apply, bhh_apply]
  simp only [Ideal.addf_def]
  unfold gate
  rw [add_assoc]

/-! The four column blocks. -/

theorem blk0_apply (x0 x1 x3 x4 : Mat) (x5 x6 : Vec4) (r : Fin 4096) (q : Fin 1024) :
    val_main_v11 (F := Ideal) x0 x1 x3 x4 x5 x6 (ix2 r q) = gate x0 x1 x3 x4 x5 x6 0 r q := by
  rw [val_main_v11_apply, ← pre_apply]
  have e : idx_main_v11 (ix2 r q) = ix2 r (wrow 0 q) :=
    funext fun a => Fin.ext (by
      match a with
      | ⟨0, _⟩ => rfl
      | ⟨1, _⟩ => show q.val = 1024 * 0 + q.val; omega)
  rw [e]

theorem blk1_apply (x0 x1 x3 x4 : Mat) (x5 x6 : Vec4) (r : Fin 4096) (q : Fin 1024) :
    val_main_v12 (F := Ideal) x0 x1 x3 x4 x5 x6 (ix2 r q) = gate x0 x1 x3 x4 x5 x6 1 r q := by
  rw [val_main_v12_apply, ← pre_apply]
  have e : idx_main_v12 (ix2 r q) = ix2 r (wrow 1 q) :=
    funext fun a => Fin.ext (by
      match a with
      | ⟨0, _⟩ => rfl
      | ⟨1, _⟩ => show 1024 + q.val = 1024 * 1 + q.val; omega)
  rw [e]

theorem blk2_apply (x0 x1 x3 x4 : Mat) (x5 x6 : Vec4) (r : Fin 4096) (q : Fin 1024) :
    val_main_v13 (F := Ideal) x0 x1 x3 x4 x5 x6 (ix2 r q) = gate x0 x1 x3 x4 x5 x6 2 r q := by
  rw [val_main_v13_apply, ← pre_apply]
  have e : idx_main_v13 (ix2 r q) = ix2 r (wrow 2 q) :=
    funext fun a => Fin.ext (by
      match a with
      | ⟨0, _⟩ => rfl
      | ⟨1, _⟩ => show 2048 + q.val = 1024 * 2 + q.val; omega)
  rw [e]

theorem blk3_apply (x0 x1 x3 x4 : Mat) (x5 x6 : Vec4) (r : Fin 4096) (q : Fin 1024) :
    val_main_v14 (F := Ideal) x0 x1 x3 x4 x5 x6 (ix2 r q) = gate x0 x1 x3 x4 x5 x6 3 r q := by
  rw [val_main_v14_apply, ← pre_apply]
  have e : idx_main_v14 (ix2 r q) = ix2 r (wrow 3 q) :=
    funext fun a => Fin.ext (by
      match a with
      | ⟨0, _⟩ => rfl
      | ⟨1, _⟩ => show 3072 + q.val = 1024 * 3 + q.val; omega)
  rw [e]

/-! The pointwise tail: 1 / (1 + exp (-z)) is the logistic function of z. -/

/-- The input gate. -/
theorem sigI_apply (x0 x1 x3 x4 : Mat) (x5 x6 : Vec4) (r : Fin 4096) (q : Fin 1024) :
    val_main_v20 (F := Ideal) x0 x1 x3 x4 x5 x6 (ix2 r q) = Ideal.logistic (gate x0 x1 x3 x4 x5 x6 0 r q) := by
  rw [val_main_v20_apply, val_main_v19_apply, val_main_cst_0_apply, val_main_v18_apply, val_main_v17_apply,
    val_main_cst_apply, val_main_v16_apply, val_main_v15_apply, blk0_apply]
  simp only [Ideal.hostDivf_def, Ideal.addf_def, Ideal.hostUnary_exp_def, Ideal.hostNegf_def, Ideal.negf_def,
    Ideal.ofBits_def, ofBits_one]
  rfl

/-- The forget gate. -/
theorem sigF_apply (x0 x1 x3 x4 : Mat) (x5 x6 : Vec4) (r : Fin 4096) (q : Fin 1024) :
    val_main_v26 (F := Ideal) x0 x1 x3 x4 x5 x6 (ix2 r q) = Ideal.logistic (gate x0 x1 x3 x4 x5 x6 1 r q) := by
  rw [val_main_v26_apply, val_main_v25_apply, val_main_cst_2_apply, val_main_v24_apply, val_main_v23_apply,
    val_main_cst_1_apply, val_main_v22_apply, val_main_v21_apply, blk1_apply]
  simp only [Ideal.hostDivf_def, Ideal.addf_def, Ideal.hostUnary_exp_def, Ideal.hostNegf_def, Ideal.negf_def,
    Ideal.ofBits_def, ofBits_one]
  rfl

/-- The cell candidate. -/
theorem tanhG_apply (x0 x1 x3 x4 : Mat) (x5 x6 : Vec4) (r : Fin 4096) (q : Fin 1024) :
    val_main_v27 (F := Ideal) x0 x1 x3 x4 x5 x6 (ix2 r q) = Ideal.tanh (gate x0 x1 x3 x4 x5 x6 2 r q) := by
  rw [val_main_v27_apply, blk2_apply]
  simp only [Ideal.hostUnary_tanh_def]

/-- The output gate. -/
theorem sigO_apply (x0 x1 x3 x4 : Mat) (x5 x6 : Vec4) (r : Fin 4096) (q : Fin 1024) :
    val_main_v33 (F := Ideal) x0 x1 x3 x4 x5 x6 (ix2 r q) = Ideal.logistic (gate x0 x1 x3 x4 x5 x6 3 r q) := by
  rw [val_main_v33_apply, val_main_v32_apply, val_main_cst_4_apply, val_main_v31_apply, val_main_v30_apply,
    val_main_cst_3_apply, val_main_v29_apply, val_main_v28_apply, blk3_apply]
  simp only [Ideal.hostDivf_def, Ideal.addf_def, Ideal.hostUnary_exp_def, Ideal.hostNegf_def, Ideal.negf_def,
    Ideal.ofBits_def, ofBits_one]
  rfl

/-- The new cell state at one element. -/
theorem cell_apply (x0 x1 x2 x3 x4 : Mat) (x5 x6 : Vec4) (r : Fin 4096) (q : Fin 1024) :
    val_main_v36 (F := Ideal) x0 x1 x2 x3 x4 x5 x6 (ix2 r q) = cellNew x0 x1 x2 x3 x4 x5 x6 r q := by
  rw [val_main_v36_apply, val_main_v34_apply, val_main_v35_apply, sigF_apply, sigI_apply, tanhG_apply]
  simp only [Ideal.addf_def, Ideal.mulf_def]
  rfl

/-- The new hidden state at one element. -/
theorem hidden_apply (x0 x1 x2 x3 x4 : Mat) (x5 x6 : Vec4) (r : Fin 4096) (q : Fin 1024) :
    val_main_v38 (F := Ideal) x0 x1 x2 x3 x4 x5 x6 (ix2 r q) = hiddenNew x0 x1 x2 x3 x4 x5 x6 r q := by
  rw [val_main_v38_apply, val_main_v37_apply, sigO_apply, cell_apply]
  simp only [Ideal.mulf_def, Ideal.hostUnary_tanh_def]
  rfl

/-- The reference's second result is the specification's array of new cell states. -/
theorem cell_eq (x0 x1 x2 x3 x4 : (⟨S4096x1024, .f32⟩ : BufTy).Contents (Elt Ideal)) (x5 x6 : (⟨S4096, .f32⟩ : BufTy).Contents (Elt Ideal)) :
    Cert.ReferenceIdeal.Read.val_main_v36 (F := Ideal) x0 x1 x2 x3 x4 x5 x6 = Cert.Lstm.cellOut x0 x1 x2 x3 x4 x5 x6 := by
  funext i
  obtain ⟨r, q, rfl⟩ : ∃ (r : Fin 4096) (q : Fin 1024), i = ix2 r q := ⟨i 0, i 1, eq_ix2 i⟩
  rw [cellOut_apply]
  exact cell_apply x0 x1 x2 x3 x4 x5 x6 r q

/-- The reference's first result is the specification's array of new hidden states. -/
theorem hidden_eq (x0 x1 x2 x3 x4 : (⟨S4096x1024, .f32⟩ : BufTy).Contents (Elt Ideal)) (x5 x6 : (⟨S4096, .f32⟩ : BufTy).Contents (Elt Ideal)) :
    Cert.ReferenceIdeal.Read.val_main_v38 (F := Ideal) x0 x1 x2 x3 x4 x5 x6 = Cert.Lstm.hiddenOut x0 x1 x2 x3 x4 x5 x6 := by
  funext i
  obtain ⟨r, q, rfl⟩ : ∃ (r : Fin 4096) (q : Fin 1024), i = ix2 r q := ⟨i 0, i 1, eq_ix2 i⟩
  rw [hiddenOut_apply]
  exact hidden_apply x0 x1 x2 x3 x4 x5 x6 r q

end Cert.LstmRef

end
-- ==== Proof.lean ====
/-
  An LSTM cell, fused: the kernel walks a 16 × 4 grid, batch tile by batch tile and, within a tile, gate group by gate
  group.  At the first three points of a tile it keeps σ(input gate), σ(forget gate) and tanh(cell gate) of the tile in
  buffers of its own; at the fourth it forms the new cell state  σ(forget) · c + σ(input) · tanh(cell)  and the new hidden
  state  σ(output) · tanh(new cell state)  and writes the tile's rows of the two results.  The reference computes all
  four gate groups at once as one `[4096, 4096]` array and cuts it into column blocks.  On the extended reals the two
  agree entry by entry: the kernel's inner products over a weight block's rows are the reference's over the transposed
  weights' columns; the kernel adds the sum of the two biases where the reference adds them one after the other
  (addition of extended reals is associative); a change of float format is the identity; and the reference's
  `1 / (1 + exp (-z))` is the logistic function the kernel applies.  No finiteness of the inputs is used.

  The word-level kernel and its idealization are one program text, so their frames are one proof read at two
  instances; the idealization rewrote nothing, so there is nothing to preserve.
-/
import proofs.«180770_j49460843380786_1_alg».proof.Defs
import proofs.«180770_j49460843380786_1_alg».proof.Proof.KBFrame
import proofs.«180770_j49460843380786_1_alg».proof.Proof.KIValue
import proofs.«180770_j49460843380786_1_alg».proof.Proof.RefValue
import proofs.«180770_j49460843380786_1_alg».proof.Proof.Gen.Kernel
import proofs.«180770_j49460843380786_1_alg».proof.Proof.Gen.KernelIdeal
import proofs.«180770_j49460843380786_1_alg».proof.Proof.Gen.ReferenceIdeal
import proofs.«180770_j49460843380786_1_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the specification's new hidden states and new cell states of arguments that agree. -/
theorem algebraic : Cert.algebraic_KernelIdeal_ReferenceIdeal := by
  intro m ρ m' ρ' _ hagree
  refine ⟨_, _, Cert.KernelIdeal.Body.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨?_, ?_, (h c).2.2⟩
  · refine ((h c).1.trans (Cert.ReferenceIdeal.Read.val_main_v38_eq m' c)).trans ?_
    rw [Cert.LstmRef.hidden_eq, a0, a1, a2, a3, a4, a5, a6]
  · refine ((h c).2.1.trans (Cert.ReferenceIdeal.Read.val_main_v36_eq _ _ _ _ _ _ _)).trans ?_
    rw [Cert.LstmRef.cell_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
